-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64 : Shape := ⟨2, ![16, 64]⟩
abbrev S100000x4x64 : Shape := ⟨3, ![100000, 4, 64]⟩
abbrev S_ : Shape := ⟨0, ![]⟩

class Facts : Prop where
  bcast_S_S16x64 : S_.BroadcastsInDim S16x64 (![] : Fin 0 → Fin S16x64.rank)
  reducesTo_S16x64_S_d0_1 : S16x64.ReducesTo [0, 1] S_
  h_S_ : 0 < S_.numel
  bcast_S_S100000x4x64 : S_.BroadcastsInDim S100000x4x64 (![] : Fin 0 → Fin S100000x4x64.rank)
  reducesTo_S100000x4x64_S_d0_1_2 : S100000x4x64.ReducesTo [0, 1, 2] S_

variable [Facts]

def fn {F : FTy → Type} [FloatOps F] (main_arg0 : FVec F S16x64 .f32) (main_arg1 : FVec F S100000x4x64 .f32) : IVec S_ 1 :=
  let main_v0 : FVec F S16x64 .f32 := Host.absf main_arg0
  let main_cst : FVec F S_ .f32 := constant S_ .f32 0x7F800000#32
  let main_v1 : FVec F S16x64 .f32 := broadcastInDim S16x64 ![] bcast_S_S16x64 main_cst
  let main_v2 : IVec S16x64 1 := cmpf .olt main_v0 main_v1
  let main_c : IVec S_ 1 := constantI S_ 1 1#1
  let main_v3 : IVec S_ 1 := (fun x v => Host.reduce IntOp.andi x v reducesTo_S16x64_S_d0_1 h_S_) main_v2 main_c
  let main_v4 : FVec F S100000x4x64 .f32 := Host.absf main_arg1
  let main_cst_0 : FVec F S_ .f32 := constant S_ .f32 0x7F800000#32
  let main_v5 : FVec F S100000x4x64 .f32 := broadcastInDim S100000x4x64 ![] bcast_S_S100000x4x64 main_cst_0
  let main_v6 : IVec S100000x4x64 1 := cmpf .olt main_v4 main_v5
  let main_c_1 : IVec S_ 1 := constantI S_ 1 1#1
  let main_v7 : IVec S_ 1 := (fun x v => Host.reduce IntOp.andi x v reducesTo_S100000x4x64_S_d0_1_2 h_S_) main_v6 main_c_1
  let main_v8 : IVec S_ 1 := andi main_v3 main_v7
  main_v8
-- ==== Kernel.lean ====
abbrev S16x64 : Shape := ⟨2, ![16, 64]⟩
abbrev S100000x4x64 : Shape := ⟨3, ![100000, 4, 64]⟩
abbrev S4x64x100000 : Shape := ⟨3, ![4, 64, 100000]⟩
abbrev S16x100000 : Shape := ⟨2, ![16, 100000]⟩
abbrev S1x64x10240 : Shape := ⟨3, ![1, 64, 10240]⟩
abbrev S16x10240 : Shape := ⟨2, ![16, 10240]⟩
abbrev S1x64 : Shape := ⟨2, ![1, 64]⟩
abbrev S64x10240 : Shape := ⟨2, ![64, 10240]⟩
abbrev S1x10240 : Shape := ⟨2, ![1, 10240]⟩

abbrev nBuf : Space → Nat
  | .hbm => 4
  | .vmem => 5
  | .smem => 0
  | _ => 0

abbrev bufTy : (tb : Table) → Fin (tcTables nBuf tb) → BufTy
  | .hbm, ⟨0, _⟩ => ⟨S16x64, .f32⟩
  | .hbm, ⟨1, _⟩ => ⟨S100000x4x64, .f32⟩
  | .hbm, ⟨2, _⟩ => ⟨S4x64x100000, .f32⟩
  | .hbm, ⟨3, _⟩ => ⟨S16x100000, .f32⟩
  | .local _ .vmem, ⟨0, _⟩ => ⟨S16x64, .f32⟩
  | .local _ .vmem, ⟨1, _⟩ => ⟨S1x64x10240, .f32⟩
  | .local _ .vmem, ⟨2, _⟩ => ⟨S1x64x10240, .f32⟩
  | .local _ .vmem, ⟨3, _⟩ => ⟨S16x10240, .f32⟩
  | .local _ .vmem, ⟨4, _⟩ => ⟨S16x10240, .f32⟩
  | _, _ => ⟨S16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![10, 4], ![false, false]⟩

def k0_cond1 (i : grid0.Coords) : BitVec 1 :=
  let arg1 : BitVec 32 := BitVec.ofNat 32 (i 1).val
  let c0_i32 : BitVec 32 := 0#32
  let v12 : BitVec 1 := Scalar.cmpi .eq arg1 c0_i32
  let v13 : BitVec 32 := Scalar.extui v12
  let c0_i32_7 : BitVec 32 := 0#32
  let v14 : BitVec 1 := Scalar.cmpi .ne v13 c0_i32_7
  v14

def k0_cond2 (i : grid0.Coords) : BitVec 1 :=
  let arg1 : BitVec 32 := BitVec.ofNat 32 (i 1).val
  let c0_i32_8 : BitVec 32 := 0#32
  let v15 : BitVec 1 := Scalar.cmpi .sgt arg1 c0_i32_8
  let c3_i32 : BitVec 32 := 3#32
  let v16 : BitVec 1 := Scalar.cmpi .slt arg1 c3_i32
  let v17 : BitVec 1 := Scalar.andi v15 v16
  let v18 : BitVec 32 := Scalar.extui v17
  let c0_i32_9 : BitVec 32 := 0#32
  let v19 : BitVec 1 := Scalar.cmpi .ne v18 c0_i32_9
  v19

def k0_cond3 (i : grid0.Coords) : BitVec 1 :=
  let arg1 : BitVec 32 := BitVec.ofNat 32 (i 1).val
  let c3_i32_10 : BitVec 32 := 3#32
  let v20 : BitVec 1 := Scalar.cmpi .eq arg1 c3_i32_10
  let v21 : BitVec 32 := Scalar.extui v20
  let c0_i32_11 : BitVec 32 := 0#32
  let v22 : BitVec 1 := Scalar.cmpi .ne v21 c0_i32_11
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x64x10240 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x10240 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S100000x4x64_S4x64x100000_1_2_0 : S100000x4x64.Transposes [1, 2, 0] S4x64x100000
  inb_S16x64_S16x64_0_0 : ∀ a, (![0, 0] : Fin 2 → Nat) a + S16x64.size a ≤ S16x64.size a
  h_S16x64 : 0 < S16x64.numel
  inb_S1x64x10240_S1x64x10240_0_0_0 : ∀ a, (![0, 0, 0] : Fin 3 → Nat) a + S1x64x10240.size a ≤ S1x64x10240.size a
  h_S1x64x10240 : 0 < S1x64x10240.numel
  shapeCasts_S1x64x10240_S64x10240 : S1x64x10240.ShapeCasts S64x10240
  broadcasts_S1x10240_S16x10240 : S1x10240.Broadcasts S16x10240
  inb_S16x10240_S16x10240_0_0 : ∀ a, (![0, 0] : Fin 2 → Nat) a + S16x10240.size a ≤ S16x10240.size a
  h_S16x10240 : 0 < S16x10240.numel
  shapeCasts_S16x10240_S16x10240 : S16x10240.ShapeCasts S16x10240
  dot_S16x64_S64x10240_S16x10240_1_0_0_1_n_n_wf : DotDims.WF S16x64 S64x10240 S16x10240 [1] [0] [0] [1] [] []
  dot_S1x64_S64x10240_S1x10240_1_0_0_1_n_n_wf : DotDims.WF S1x64 S64x10240 S1x10240 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x64.size a ≤ S16x64.size a
  hwx0_0 : ∀ i : grid0.Coords, EltTy.bits .f32 = 32 ∨ (Rect.block (s := S16x64) S16x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1x64x10240.size a < S4x64x100000.size a
  hwx0_1 : ∀ i : grid0.Coords, EltTy.bits .f32 = 32 ∨ (Rect.unit (s := S4x64x100000) (fun a => cc0_transform_1 i a * S1x64x10240.size a) (fun a => (Pipeline.Clip.of (cc0_transform_1 i a) (S1x64x10240.size a) (S4x64x100000.size a)).extent (S1x64x10240.size a)) fun a => Pipeline.Clip.inb (Pipeline.Clip.ok_of (hstart0_1 i a))).WholeWords (EltTy.packing .f32)
  hwxs0_1 : ∀ i : grid0.Coords, EltTy.bits .f32 = 32 ∨ (Rect.unit (s := S1x64x10240) (fun _ => 0) (fun a => (Pipeline.Clip.of (cc0_transform_1 i a) (S1x64x10240.size a) (S4x64x100000.size a)).extent (S1x64x10240.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S16x10240.size a < S16x100000.size a
  hwx0_2 : ∀ i : grid0.Coords, EltTy.bits .f32 = 32 ∨ (Rect.unit (s := S16x100000) (fun a => cc0_transform_2 i a * S16x10240.size a) (fun a => (Pipeline.Clip.of (cc0_transform_2 i a) (S16x10240.size a) (S16x100000.size a)).extent (S16x10240.size a)) fun a => Pipeline.Clip.inb (Pipeline.Clip.ok_of (hstart0_2 i a))).WholeWords (EltTy.packing .f32)
  hwxs0_2 : ∀ i : grid0.Coords, EltTy.bits .f32 = 32 ∨ (Rect.unit (s := S16x10240) (fun _ => 0) (fun a => (Pipeline.Clip.of (cc0_transform_2 i a) (S16x10240.size a) (S16x100000.size a)).extent (S16x10240.size a)) fun a => (Nat.zero_add _).trans_le (Pipeline.Clip.extent_le (Pipeline.Clip.ok_of (hstart0_2 i a)))).WholeWords (EltTy.packing .f32)

variable [Facts₀]

def dot_S16x64_S64x10240_S16x10240_1_0_0_1_n_n : DotDims S16x64 S64x10240 S16x10240 where
  lhsContracting := [1]
  rhsContracting := [0]
  lhsNonContracting := [0]
  rhsNonContracting := [1]
  lhsBatch := []
  rhsBatch := []
  wf := dot_S16x64_S64x10240_S16x10240_1_0_0_1_n_n_wf
def dot_S1x64_S64x10240_S1x10240_1_0_0_1_n_n : DotDims S1x64 S64x10240 S1x10240 where
  lhsContracting := [1]
  rhsContracting := [0]
  lhsNonContracting := [0]
  rhsNonContracting := [1]
  lhsBatch := []
  rhsBatch := []
  wf := dot_S1x64_S64x10240_S1x10240_1_0_0_1_n_n_wf

abbrev win0_0 : Pipeline.Window sig grid0 :=
  Pipeline.Window.ofSpec (Memref.whole main_arg0) S16x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_call0_v0) S1x64x10240.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S16x10240.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) && !(k0_cond3 i == 1#1) | ⟨_ + 3, h⟩ => absurd h (Nat.not_lt.2 (Nat.le_add_left _ _))

class Facts : Prop extends Facts₀ where

variable [Facts]
-- ==== ReferenceIdeal.lean ====
abbrev S16x64 : Shape := ⟨2, ![16, 64]⟩
abbrev S100000x4x64 : Shape := ⟨3, ![100000, 4, 64]⟩
abbrev S_ : Shape := ⟨0, ![]⟩
abbrev S100000x4 : Shape := ⟨2, ![100000, 4]⟩
abbrev S100000x4x1 : Shape := ⟨3, ![100000, 4, 1]⟩
abbrev S16x100000x4 : Shape := ⟨3, ![16, 100000, 4]⟩
abbrev S16x100000 : Shape := ⟨2, ![16, 100000]⟩

abbrev nBuf : Space → Nat
  | .hbm => 18
  | .vmem => 0
  | .smem => 0
  | _ => 0

abbrev bufTy : (tb : Table) → Fin (tcTables nBuf tb) → BufTy
  | .hbm, ⟨0, _⟩ => ⟨S16x64, .f32⟩
  | .hbm, ⟨1, _⟩ => ⟨S100000x4x64, .f32⟩
  | .hbm, ⟨2, _⟩ => ⟨S100000x4x64, .f32⟩
  | .hbm, ⟨3, _⟩ => ⟨S_, .f32⟩
  | .hbm, ⟨4, _⟩ => ⟨S100000x4, .f32⟩
  | .hbm, ⟨5, _⟩ => ⟨S100000x4x1, .f32⟩
  | .hbm, ⟨6, _⟩ => ⟨S100000x4x1, .f32⟩
  | .hbm, ⟨7, _⟩ => ⟨S_, .f32⟩
  | .hbm, ⟨8, _⟩ => ⟨S100000x4x1, .f32⟩
  | .hbm, ⟨9, _⟩ => ⟨S100000x4x1, .f32⟩
  | .hbm, ⟨10, _⟩ => ⟨S100000x4x64, .f32⟩
  | .hbm, ⟨11, _⟩ => ⟨S100000x4x64, .f32⟩
  | .hbm, ⟨12, _⟩ => ⟨S16x100000x4, .f32⟩
  | .hbm, ⟨13, _⟩ => ⟨S_, .f32⟩
  | .hbm, ⟨14, _⟩ => ⟨S16x100000x4, .f32⟩
  | .hbm, ⟨15, _⟩ => ⟨S16x100000x4, .f32⟩
  | .hbm, ⟨16, _⟩ => ⟨S_, .f32⟩
  | .hbm, ⟨17, _⟩ => ⟨S16x100000, .f32⟩
  | _, _ => ⟨S16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩

abbrev nD : Nat := 1
abbrev τ : Topo := Topo.v7x

variable {F : FTy → Type} [FloatOps F]

class Facts₀ : Prop where
  reducesTo_S100000x4x64_S100000x4_d2 : S100000x4x64.ReducesTo [2] S100000x4
  h_S_ : 0 < S_.numel
  bcast_S100000x4_S100000x4x1_0_1 : S100000x4.BroadcastsInDim S100000x4x1 (![0, 1] : Fin 2 → Fin S100000x4x1.rank)
  bcast_S_S100000x4x1 : S_.BroadcastsInDim S100000x4x1 (![] : Fin 0 → Fin S100000x4x1.rank)
  bcast_S100000x4x1_S100000x4x64_0_1_2 : S100000x4x1.BroadcastsInDim S100000x4x64 (![0, 1, 2] : Fin 3 → Fin S100000x4x64.rank)
  bcast_S_S16x100000x4 : S_.BroadcastsInDim S16x100000x4 (![] : Fin 0 → Fin S16x100000x4.rank)
  reducesTo_S16x100000x4_S16x100000_d2 : S16x100000x4.ReducesTo [2] S16x100000
  dot_S16x64_S100000x4x64_S16x100000x4_1_2_0_01_n_n_wf : DotDims.WF S16x64 S100000x4x64 S16x100000x4 [1] [2] [0] [0, 1] [] []

variable [Facts₀]

def dot_S16x64_S100000x4x64_S16x100000x4_1_2_0_01_n_n : DotDims S16x64 S100000x4x64 S16x100000x4 where
  lhsContracting := [1]
  rhsContracting := [2]
  lhsNonContracting := [0]
  rhsNonContracting := [0, 1]
  lhsBatch := []
  rhsBatch := []
  wf := dot_S16x64_S100000x4x64_S16x100000x4_1_2_0_01_n_n_wf

class Facts : Prop extends Facts₀ where

variable [Facts]
-- ==== Proof.StepBits.lean ====
import proofs.«123097_g82910048682286_cont_9to1c4b_726_13_alg».proof.Proof.Gen.Kernel.Frame
import proofs.«123097_g82910048682286_cont_9to1c4b_726_13_alg».proof.Proof.Gen.Kernel.Skeleton
import Idealize.ShloMosaic.Lib.Pipeline.Value

/-!
# One grid point of the kernel body, on whole staging buffers

The body reads the codes block and one (64 × 10240) slab of centroid columns, forms the slab's
scaled similarities `s`, and then does one of three things to the output block, by the position
`k` of the point along the grid's second axis:

* `k = 0`      : the block becomes `s`;
* `0 < k < 3`  : the block becomes `max block s`;
* `k = 3`      : the block becomes `1 - max block s`.

Each case is stated on arbitrary whole buffers holding arbitrary contents `x0 x1 x2`: the two input
buffers come back unchanged and the output buffer holds the case's function of `x0 x1 x2`.
The accesses are all through the whole-buffer rectangle at offset zero, so a load reads the
contents and the one store leaves its payload.
-/

set_option maxRecDepth 16384

noncomputable section

namespace Cert.Kernel.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Kernel Cert.Kernel.Gen

variable {F : FTy → Type} [FloatOps F]

local notation "𝕄" => MT nD τ sig Unit (Elt F) ℕ (UR sig nD τ) ℕ

theorem zeros2 : (![0, 0] : Fin 2 → Nat) = fun _ => 0 := funext fun a => by fin_cases a <;> rfl
theorem zeros3 : (![0, 0, 0] : Fin 3 → Nat) = fun _ => 0 := funext fun a => by fin_cases a <;> rfl

/-- The three buffers at contents `x0 x1 y`, as the body is handed them and as it hands them back. -/
abbrev held (c : Dev nD) (a2 : Memref sig .tc .vmem S16x64 .f32) (a3 : Memref sig .tc .vmem S1x64x10240 .f32)
    (a4 : Memref sig .tc .vmem S16x10240 .f32) (x0 : Vec F S16x64 .f32) (x1 : Vec F S1x64x10240 .f32)
    (y : Vec F S16x10240 .f32) : sProp 𝕄 :=
  iprop(owns (c : Thread nD τ) a2 fullShare x0 ∗ owns (c : Thread nD τ) a3 fullShare x1 ∗ owns (c : Thread nD τ) a4 fullShare y)

set_option maxHeartbeats 1000000 in
/-- `k = 0`: the output block is overwritten by the slab's scaled similarities. -/
theorem runFirst (c : Dev nD) (i : grid0.Coords) (a2 : Memref sig .tc .vmem S16x64 .f32) (h2 : a2.IsWhole)
    (a3 : Memref sig .tc .vmem S1x64x10240 .f32) (h3 : a3.IsWhole) (a4 : Memref sig .tc .vmem S16x10240 .f32) (h4 : a4.IsWhole)
    (hc1 : k0_cond1 i = 1#1) (hc2 : ¬ k0_cond2 i = 1#1) (hc3 : ¬ k0_cond3 i = 1#1)
    (x0 : Vec F S16x64 .f32) (x1 : Vec F S1x64x10240 .f32) (x2 : Vec F S16x10240 .f32) :
    ∀ (E : Set ℕ) (K : PUnit → sProp 𝕄),
      iprop(held c a2 a3 a4 x0 x1 x2 ∗ (held c a2 a3 a4 x0 x1 (k0_pay1 x0 x1) -∗ K ⟨⟩))
        ⊢ wp frame (wpE (defs₀ (F := F)) Variants.none c none) E (cc0__body i a2 h2 a3 h3 a4 h4) K := by
  intro E K
  simp only [cc0__body_eq_skeleton]; unfold cc0__body_skel
  unfold held owns
  iintro ⟨⟨⟨%f0, %hf0, H0⟩, ⟨%f1, %hf1, H1⟩, ⟨%f2, %hf2, H2⟩⟩, Hk⟩
  obtain rfl := h2.eq_unread hf0
  obtain rfl := h3.eq_unread hf1
  obtain rfl := h4.eq_unread hf2
  sl_exec (disch := first | exact hc1 | exact hc2 | exact hc3)
  sl_step
  iapply Hk
  isplitl [H0]
  · iexists _; isplitr; · ipureintro; exact hf0
    iexact H0
  isplitl [H1]
  · iexists _; isplitr; · ipureintro; exact hf1
    iexact H1
  iexists _; isplitr; swap; · iexact H2
  ipureintro
  rw [View.read_writes_eq_canon _ _ _ (fun y => ⟨_, List.mem_singleton_self _, View.mem_set_unit_zero zeros2 Facts₀.inb_S16x10240_S16x10240_0_0 y⟩),
    View.canon_unit_zero zeros2]
  simp only [View.readAt_eq_ld, hf0, hf1, View.ld_unit_zero (S := S16x64) zeros2, View.ld_unit_zero (S := S1x64x10240) zeros3]

set_option maxHeartbeats 1000000 in
/-- `0 < k < 3`: the output block becomes its maximum with the slab's scaled similarities. -/
theorem runMid (c : Dev nD) (i : grid0.Coords) (a2 : Memref sig .tc .vmem S16x64 .f32) (h2 : a2.IsWhole)
    (a3 : Memref sig .tc .vmem S1x64x10240 .f32) (h3 : a3.IsWhole) (a4 : Memref sig .tc .vmem S16x10240 .f32) (h4 : a4.IsWhole)
    (hc1 : ¬ k0_cond1 i = 1#1) (hc2 : k0_cond2 i = 1#1) (hc3 : ¬ k0_cond3 i = 1#1)
    (x0 : Vec F S16x64 .f32) (x1 : Vec F S1x64x10240 .f32) (x2 : Vec F S16x10240 .f32) :
    ∀ (E : Set ℕ) (K : PUnit → sProp 𝕄),
      iprop(held c a2 a3 a4 x0 x1 x2 ∗ (held c a2 a3 a4 x0 x1 (k0_pay2 x0 x1 x2) -∗ K ⟨⟩))
        ⊢ wp frame (wpE (defs₀ (F := F)) Variants.none c none) E (cc0__body i a2 h2 a3 h3 a4 h4) K := by
  intro E K
  simp only [cc0__body_eq_skeleton]; unfold cc0__body_skel
  unfold held owns
  iintro ⟨⟨⟨%f0, %hf0, H0⟩, ⟨%f1, %hf1, H1⟩, ⟨%f2, %hf2, H2⟩⟩, Hk⟩
  obtain rfl := h2.eq_unread hf0
  obtain rfl := h3.eq_unread hf1
  obtain rfl := h4.eq_unread hf2
  sl_exec (disch := first | exact hc1 | exact hc2 | exact hc3)
  sl_step
  iapply Hk
  isplitl [H0]
  · iexists _; isplitr; · ipureintro; exact hf0
    iexact H0
  isplitl [H1]
  · iexists _; isplitr; · ipureintro; exact hf1
    iexact H1
  iexists _; isplitr; swap; · iexact H2
  ipureintro
  rw [View.read_writes_eq_canon _ _ _ (fun y => ⟨_, List.mem_singleton_self _, View.mem_set_unit_zero zeros2 Facts₀.inb_S16x10240_S16x10240_0_0 y⟩),
    View.canon_unit_zero zeros2]
  simp only [View.readAt_eq_ld, hf0, hf1, hf2, View.ld_unit_zero (S := S16x64) zeros2,
    View.ld_unit_zero (S := S1x64x10240) zeros3, View.ld_unit_zero (S := S16x10240) zeros2]

set_option maxHeartbeats 1000000 in
/-- `k = 3`: the output block becomes one minus its maximum with the slab's scaled similarities. -/
theorem runLast (c : Dev nD) (i : grid0.Coords) (a2 : Memref sig .tc .vmem S16x64 .f32) (h2 : a2.IsWhole)
    (a3 : Memref sig .tc .vmem S1x64x10240 .f32) (h3 : a3.IsWhole) (a4 : Memref sig .tc .vmem S16x10240 .f32) (h4 : a4.IsWhole)
    (hc1 : ¬ k0_cond1 i = 1#1) (hc2 : ¬ k0_cond2 i = 1#1) (hc3 : k0_cond3 i = 1#1)
    (x0 : Vec F S16x64 .f32) (x1 : Vec F S1x64x10240 .f32) (x2 : Vec F S16x10240 .f32) :
    ∀ (E : Set ℕ) (K : PUnit → sProp 𝕄),
      iprop(held c a2 a3 a4 x0 x1 x2 ∗ (held c a2 a3 a4 x0 x1 (k0_pay3 x0 x1 x2) -∗ K ⟨⟩))
        ⊢ wp frame (wpE (defs₀ (F := F)) Variants.none c none) E (cc0__body i a2 h2 a3 h3 a4 h4) K := by
  intro E K
  simp only [cc0__body_eq_skeleton]; unfold cc0__body_skel
  unfold held owns
  iintro ⟨⟨⟨%f0, %hf0, H0⟩, ⟨%f1, %hf1, H1⟩, ⟨%f2, %hf2, H2⟩⟩, Hk⟩
  obtain rfl := h2.eq_unread hf0
  obtain rfl := h3.eq_unread hf1
  obtain rfl := h4.eq_unread hf2
  sl_exec (disch := first | exact hc1 | exact hc2 | exact hc3)
  sl_step
  iapply Hk
  isplitl [H0]
  · iexists _; isplitr; · ipureintro; exact hf0
    iexact H0
  isplitl [H1]
  · iexists _; isplitr; · ipureintro; exact hf1
    iexact H1
  iexists _; isplitr; swap; · iexact H2
  ipureintro
  rw [View.read_writes_eq_canon _ _ _ (fun y => ⟨_, List.mem_singleton_self _, View.mem_set_unit_zero zeros2 Facts₀.inb_S16x10240_S16x10240_0_0 y⟩),
    View.canon_unit_zero zeros2]
  simp only [View.readAt_eq_ld, hf0, hf1, hf2, View.ld_unit_zero (S := S16x64) zeros2,
    View.ld_unit_zero (S := S1x64x10240) zeros3, View.ld_unit_zero (S := S16x10240) zeros2]

/-! ## Which case a grid point is in

The grid is 10 × 4 with the second axis fastest, so point `t` sits at position `t mod 4` along it.
The three branch conditions are comparisons of that position with 0 and 3, decided over the forty points. -/

theorem cond1_iff : ∀ t : Fin cfg0.N, k0_cond1 (grid0.coords t) = 1#1 ↔ t.val % 4 = 0 :=
  (by decide +kernel : ∀ t : Fin grid0.N, k0_cond1 (grid0.coords t) = 1#1 ↔ t.val % 4 = 0)
theorem cond2_iff : ∀ t : Fin cfg0.N, k0_cond2 (grid0.coords t) = 1#1 ↔ (t.val % 4 = 1 ∨ t.val % 4 = 2) :=
  (by decide +kernel : ∀ t : Fin grid0.N, k0_cond2 (grid0.coords t) = 1#1 ↔ (t.val % 4 = 1 ∨ t.val % 4 = 2))
theorem cond3_iff : ∀ t : Fin cfg0.N, k0_cond3 (grid0.coords t) = 1#1 ↔ t.val % 4 = 3 :=
  (by decide +kernel : ∀ t : Fin grid0.N, k0_cond3 (grid0.coords t) = 1#1 ↔ t.val % 4 = 3)

/-- The output window is never idle: every point is in one of the three cases. -/
theorem live2 : ∀ t : Fin cfg0.N, cfg0.idle 2 (grid0.coords t) = false := by decide +kernel
theorem live1 : ∀ t : Fin cfg0.N, cfg0.idle 1 (grid0.coords t) = false := by decide +kernel
theorem live0 : ∀ t : Fin cfg0.N, cfg0.idle 0 (grid0.coords t) = false := by decide +kernel

end Cert.Kernel.Step

end
-- ==== Proof.FrameBits.lean ====
import proofs.«123097_g82910048682286_cont_9to1c4b_726_13_alg».proof.Proof.StepBits
import Idealize.ShloMosaic.Lib.Pipeline.Frame

/-!
# The word-level kernel runs and leaves its arguments alone

The grid walks ten column blocks of the (transposed) centroid array, four slabs each. The last
column block overhangs the array (100000 = 9 · 10240 + 7840), so at its four points the slab's
staging buffer holds, past column 7840, words that nothing names, and the body computes on them.
For the frame that does not matter: the output block's contents are never named here (the window
is forgotten — handed to the body at anything and taken back at anything), the codes block is
found in place at every point, and the slab's buffer is handed back exactly as it was fetched.
-/

set_option maxRecDepth 16384

noncomputable section

namespace Cert.Kernel.FrameBits

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Kernel Cert.Kernel.Gen Cert.Kernel.Step

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window is the one whose contents are never named. -/
def forgets : Fin 3 → Bool := fun w => w.val == 2

/-- A slab as its fetch leaves it, with the zero word standing past the array's end (where nothing is stated). -/
def slab (c : Dev nD) (t : Fin cfg0.N) : S1x64x10240.Idx → Elt F .f32 :=
  win0_1.fill (grid0.coords t) (fun _ => Scalar.ofBits .f32 0#32) (iblk m c 1 t)

/-- The proof data: the arrays as the region finds them; after the body the codes buffer at its block, the slab
    buffer at the slab, the output buffer unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => slab m c t
    | ⟨2, h⟩ => Pipeline.Dat.unnamed (cfg := cfg0) ⟨2, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = slab m c t := by dsimp only [dats]

/-- The codes block is found in place at every point. -/
theorem before0 (c : Dev nD) (t : Fin cfg0.N) (d) : (dats m 0 c).before 0 t d = iblk m c 0 t :=
  before0_0_of m (dats m 0 c) (A_eq m c 0) (after0 m c) t d

/-- The slab is fetched at every point: its buffer holds the block on the columns inside the array, `d` past them. -/
theorem before1 (c : Dev nD) (t : Fin cfg0.N) (d) :
    (dats m 0 c).before 1 t d = win0_1.fill (grid0.coords t) d (iblk m c 1 t) := by
  rw [(dats m 0 c).before_fetched 1 t (fetch0_1 t)]
  unfold Dat.fetched Dat.blockOf iblk; rw [A_eq]

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ X, owns (c : Thread nD τ) (st0_2 t) fullShare X))

/-- and what it returns: the slab's buffer stated on the columns inside the array only. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        (win0_1.fill (grid0.coords t) d (win0_1.cut (grid0.coords t) ((dats m 0 c).after 1 t))))
    ∗ (∃ X, owns (c : Thread nD τ) (st0_2 t) fullShare X))

set_option maxHeartbeats 1000000 in
/-- The body at any point, by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, after0, after1]
  rw [show (dats m 0 c).Φ t.succ = (dats m 0 c).Φ t.castSucc from rfl,
    show (dats m 0 c).owesAt () t.succ = (dats m 0 c).owesAt () t.castSucc from rfl]
  have hcut : ∀ d, win0_1.fill (grid0.coords t) d (win0_1.cut (grid0.coords t) (slab m c t))
      = win0_1.fill (grid0.coords t) d (iblk m c 1 t) := fun d => by
    unfold slab; rw [Window.cut_fill]
  simp only [hcut]
  iintro ⟨HΦ, Ho, ⟨%d0, H0⟩, ⟨%d1, H1⟩, ⟨%X, H2⟩⟩
  have h4 : t.val % 4 < 4 := Nat.mod_lt _ (by decide)
  by_cases k0 : t.val % 4 = 0
  · iapply (runFirst c (grid0.coords t) _ _ _ _ _ _ ((cond1_iff t).mpr k0)
      (fun h => by have := (cond2_iff t).mp h; omega) (fun h => by have := (cond3_iff t).mp h; omega)
      (iblk m c 0 t) (win0_1.fill (grid0.coords t) d1 (iblk m c 1 t)) X Set.univ _)
    isplitl [H0 H1 H2]
    · isplitl [H0]; · iexact H0
      isplitl [H1]; · iexact H1
      iexact H2
    iintro ⟨H0, H1, H2⟩
    isplitl [HΦ]; · iexact HΦ
    isplitl [Ho]; · iexact Ho
    isplitl [H0]; · iexact H0
    isplitl [H1]; · iexists d1; iexact H1
    iexists _; iexact H2
  · by_cases k3 : t.val % 4 = 3
    · iapply (runLast c (grid0.coords t) _ _ _ _ _ _ (fun h => k0 ((cond1_iff t).mp h))
        (fun h => by have := (cond2_iff t).mp h; omega) ((cond3_iff t).mpr k3)
        (iblk m c 0 t) (win0_1.fill (grid0.coords t) d1 (iblk m c 1 t)) X Set.univ _)
      isplitl [H0 H1 H2]
      · isplitl [H0]; · iexact H0
        isplitl [H1]; · iexact H1
        iexact H2
      iintro ⟨H0, H1, H2⟩
      isplitl [HΦ]; · iexact HΦ
      isplitl [Ho]; · iexact Ho
      isplitl [H0]; · iexact H0
      isplitl [H1]; · iexists d1; iexact H1
      iexists _; iexact H2
    · iapply (runMid c (grid0.coords t) _ _ _ _ _ _ (fun h => k0 ((cond1_iff t).mp h))
        ((cond2_iff t).mpr (by omega)) (fun h => k3 ((cond3_iff t).mp h))
        (iblk m c 0 t) (win0_1.fill (grid0.coords t) d1 (iblk m c 1 t)) X Set.univ _)
      isplitl [H0 H1 H2]
      · isplitl [H0]; · iexact H0
        isplitl [H1]; · iexact H1
        iexact H2
      iintro ⟨H0, H1, H2⟩
      isplitl [HΦ]; · iexact HΦ
      isplitl [Ho]; · iexact Ho
      isplitl [H0]; · iexact H0
      isplitl [H1]; · iexists d1; iexact H1
      iexists _; iexact H2

/-- The library's body obligation, the output window forgotten. -/
theorem body_obligation (c : Dev nD) :
    BodyObligationLoose (dats (F := F) m 0 c) (defs₀ (F := F)) Variants.none () Set.univ forgets := fun t => by
  rw [bigSep_W0, bigSep_W0]
  exact sound_body m c t

set_option backward.isDefEq.respectTransparency.types false in
/-- Every weakly fair execution of @main terminates, nothing faulting; the staged input arrays and every buffer the
    region does not stage end as the region found them; nothing is said of the output array. -/
theorem run_main : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget)
    (hshare := fun c => ((dats m 0 c).toRForget forgets).share_full fun _ => rfl)
    (howed := fun _ _ => rfl) (V := V m) (hmain := hmain m Variants.none) (hA := A_eq m) (hΦ := fun _ _ => rfl)

/-- The frame: the codes array is a staged input (it ends at its entry contents), the centroid array is staged by no
    window (only its transpose is), and no host operation before the region writes either. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(Eq.mp (congrFun (((dats m 0 c).toRForget forgets).ArrAt_in 0 rfl _) _) ((h c).1 0)).trans
        ((A_eq m c 0).trans (V_main_arg0 m c)),
      ((h c).2 main_arg1 (Pipeline.mem_restRefs_of main_arg1 (by decide) (by decide))).trans (V_main_arg1 m c)⟩)
    (run_main m ρ)

end Cert.Kernel.FrameBits

end
-- ==== Proof.StepIdeal.lean ====
import proofs.«123097_g82910048682286_cont_9to1c4b_726_13_alg».proof.Proof.Gen.KernelIdeal.Frame
import proofs.«123097_g82910048682286_cont_9to1c4b_726_13_alg».proof.Proof.Gen.KernelIdeal.Skeleton
import Idealize.ShloMosaic.Lib.Pipeline.Value

/-!
# One grid point of the kernel body, on whole staging buffers

The body reads the codes block and one (64 × 10240) slab of centroid columns, forms the slab's
scaled similarities `s`, and then does one of three things to the output block, by the position
`k` of the point along the grid's second axis:

* `k = 0`      : the block becomes `s`;
* `0 < k < 3`  : the block becomes `max block s`;
* `k = 3`      : the block becomes `1 - max block s`.

Each case is stated on arbitrary whole buffers holding arbitrary contents `x0 x1 x2`: the two input
buffers come back unchanged and the output buffer holds the case's function of `x0 x1 x2`.
The accesses are all through the whole-buffer rectangle at offset zero, so a load reads the
contents and the one store leaves its payload.
-/

set_option maxRecDepth 16384

noncomputable section

namespace Cert.KernelIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen

variable {F : FTy → Type} [FloatOps F] [Named F]

local notation "𝕄" => MT nD τ sig Unit (Elt F) ℕ (UR sig nD τ) ℕ

theorem zeros2 : (![0, 0] : Fin 2 → Nat) = fun _ => 0 := funext fun a => by fin_cases a <;> rfl
theorem zeros3 : (![0, 0, 0] : Fin 3 → Nat) = fun _ => 0 := funext fun a => by fin_cases a <;> rfl

/-- The three buffers at contents `x0 x1 y`, as the body is handed them and as it hands them back. -/
abbrev held (c : Dev nD) (a2 : Memref sig .tc .vmem S16x64 .f32) (a3 : Memref sig .tc .vmem S1x64x10240 .f32)
    (a4 : Memref sig .tc .vmem S16x10240 .f32) (x0 : Vec F S16x64 .f32) (x1 : Vec F S1x64x10240 .f32)
    (y : Vec F S16x10240 .f32) : sProp 𝕄 :=
  iprop(owns (c : Thread nD τ) a2 fullShare x0 ∗ owns (c : Thread nD τ) a3 fullShare x1 ∗ owns (c : Thread nD τ) a4 fullShare y)

set_option maxHeartbeats 1000000 in
/-- `k = 0`: the output block is overwritten by the slab's scaled similarities. -/
theorem runFirst (c : Dev nD) (i : grid0.Coords) (a2 : Memref sig .tc .vmem S16x64 .f32) (h2 : a2.IsWhole)
    (a3 : Memref sig .tc .vmem S1x64x10240 .f32) (h3 : a3.IsWhole) (a4 : Memref sig .tc .vmem S16x10240 .f32) (h4 : a4.IsWhole)
    (hc1 : k0_cond1 i = 1#1) (hc2 : ¬ k0_cond2 i = 1#1) (hc3 : ¬ k0_cond3 i = 1#1)
    (x0 : Vec F S16x64 .f32) (x1 : Vec F S1x64x10240 .f32) (x2 : Vec F S16x10240 .f32) :
    ∀ (E : Set ℕ) (K : PUnit → sProp 𝕄),
      iprop(held c a2 a3 a4 x0 x1 x2 ∗ (held c a2 a3 a4 x0 x1 (k0_pay1 x0 x1) -∗ K ⟨⟩))
        ⊢ wp frame (wpE (defs₀ (F := F)) Variants.none c none) E (cc0__body i a2 h2 a3 h3 a4 h4) K := by
  intro E K
  simp only [cc0__body_eq_skeleton]; unfold cc0__body_skel
  unfold held owns
  iintro ⟨⟨⟨%f0, %hf0, H0⟩, ⟨%f1, %hf1, H1⟩, ⟨%f2, %hf2, H2⟩⟩, Hk⟩
  obtain rfl := h2.eq_unread hf0
  obtain rfl := h3.eq_unread hf1
  obtain rfl := h4.eq_unread hf2
  sl_exec (disch := first | exact hc1 | exact hc2 | exact hc3)
  sl_step
  iapply Hk
  isplitl [H0]
  · iexists _; isplitr; · ipureintro; exact hf0
    iexact H0
  isplitl [H1]
  · iexists _; isplitr; · ipureintro; exact hf1
    iexact H1
  iexists _; isplitr; swap; · iexact H2
  ipureintro
  rw [View.read_writes_eq_canon _ _ _ (fun y => ⟨_, List.mem_singleton_self _, View.mem_set_unit_zero zeros2 Facts₀.inb_S16x10240_S16x10240_0_0 y⟩),
    View.canon_unit_zero zeros2]
  simp only [View.readAt_eq_ld, hf0, hf1, View.ld_unit_zero (S := S16x64) zeros2, View.ld_unit_zero (S := S1x64x10240) zeros3]

set_option maxHeartbeats 1000000 in
/-- `0 < k < 3`: the output block becomes its maximum with the slab's scaled similarities. -/
theorem runMid (c : Dev nD) (i : grid0.Coords) (a2 : Memref sig .tc .vmem S16x64 .f32) (h2 : a2.IsWhole)
    (a3 : Memref sig .tc .vmem S1x64x10240 .f32) (h3 : a3.IsWhole) (a4 : Memref sig .tc .vmem S16x10240 .f32) (h4 : a4.IsWhole)
    (hc1 : ¬ k0_cond1 i = 1#1) (hc2 : k0_cond2 i = 1#1) (hc3 : ¬ k0_cond3 i = 1#1)
    (x0 : Vec F S16x64 .f32) (x1 : Vec F S1x64x10240 .f32) (x2 : Vec F S16x10240 .f32) :
    ∀ (E : Set ℕ) (K : PUnit → sProp 𝕄),
      iprop(held c a2 a3 a4 x0 x1 x2 ∗ (held c a2 a3 a4 x0 x1 (k0_pay2 x0 x1 x2) -∗ K ⟨⟩))
        ⊢ wp frame (wpE (defs₀ (F := F)) Variants.none c none) E (cc0__body i a2 h2 a3 h3 a4 h4) K := by
  intro E K
  simp only [cc0__body_eq_skeleton]; unfold cc0__body_skel
  unfold held owns
  iintro ⟨⟨⟨%f0, %hf0, H0⟩, ⟨%f1, %hf1, H1⟩, ⟨%f2, %hf2, H2⟩⟩, Hk⟩
  obtain rfl := h2.eq_unread hf0
  obtain rfl := h3.eq_unread hf1
  obtain rfl := h4.eq_unread hf2
  sl_exec (disch := first | exact hc1 | exact hc2 | exact hc3)
  sl_step
  iapply Hk
  isplitl [H0]
  · iexists _; isplitr; · ipureintro; exact hf0
    iexact H0
  isplitl [H1]
  · iexists _; isplitr; · ipureintro; exact hf1
    iexact H1
  iexists _; isplitr; swap; · iexact H2
  ipureintro
  rw [View.read_writes_eq_canon _ _ _ (fun y => ⟨_, List.mem_singleton_self _, View.mem_set_unit_zero zeros2 Facts₀.inb_S16x10240_S16x10240_0_0 y⟩),
    View.canon_unit_zero zeros2]
  simp only [View.readAt_eq_ld, hf0, hf1, hf2, View.ld_unit_zero (S := S16x64) zeros2,
    View.ld_unit_zero (S := S1x64x10240) zeros3, View.ld_unit_zero (S := S16x10240) zeros2]

set_option maxHeartbeats 1000000 in
/-- `k = 3`: the output block becomes one minus its maximum with the slab's scaled similarities. -/
theorem runLast (c : Dev nD) (i : grid0.Coords) (a2 : Memref sig .tc .vmem S16x64 .f32) (h2 : a2.IsWhole)
    (a3 : Memref sig .tc .vmem S1x64x10240 .f32) (h3 : a3.IsWhole) (a4 : Memref sig .tc .vmem S16x10240 .f32) (h4 : a4.IsWhole)
    (hc1 : ¬ k0_cond1 i = 1#1) (hc2 : ¬ k0_cond2 i = 1#1) (hc3 : k0_cond3 i = 1#1)
    (x0 : Vec F S16x64 .f32) (x1 : Vec F S1x64x10240 .f32) (x2 : Vec F S16x10240 .f32) :
    ∀ (E : Set ℕ) (K : PUnit → sProp 𝕄),
      iprop(held c a2 a3 a4 x0 x1 x2 ∗ (held c a2 a3 a4 x0 x1 (k0_pay3 x0 x1 x2) -∗ K ⟨⟩))
        ⊢ wp frame (wpE (defs₀ (F := F)) Variants.none c none) E (cc0__body i a2 h2 a3 h3 a4 h4) K := by
  intro E K
  simp only [cc0__body_eq_skeleton]; unfold cc0__body_skel
  unfold held owns
  iintro ⟨⟨⟨%f0, %hf0, H0⟩, ⟨%f1, %hf1, H1⟩, ⟨%f2, %hf2, H2⟩⟩, Hk⟩
  obtain rfl := h2.eq_unread hf0
  obtain rfl := h3.eq_unread hf1
  obtain rfl := h4.eq_unread hf2
  sl_exec (disch := first | exact hc1 | exact hc2 | exact hc3)
  sl_step
  iapply Hk
  isplitl [H0]
  · iexists _; isplitr; · ipureintro; exact hf0
    iexact H0
  isplitl [H1]
  · iexists _; isplitr; · ipureintro; exact hf1
    iexact H1
  iexists _; isplitr; swap; · iexact H2
  ipureintro
  rw [View.read_writes_eq_canon _ _ _ (fun y => ⟨_, List.mem_singleton_self _, View.mem_set_unit_zero zeros2 Facts₀.inb_S16x10240_S16x10240_0_0 y⟩),
    View.canon_unit_zero zeros2]
  simp only [View.readAt_eq_ld, hf0, hf1, hf2, View.ld_unit_zero (S := S16x64) zeros2,
    View.ld_unit_zero (S := S1x64x10240) zeros3, View.ld_unit_zero (S := S16x10240) zeros2]

/-! ## Which case a grid point is in

The grid is 10 × 4 with the second axis fastest, so point `t` sits at position `t mod 4` along it.
The three branch conditions are comparisons of that position with 0 and 3, decided over the forty points. -/

theorem cond1_iff : ∀ t : Fin cfg0.N, k0_cond1 (grid0.coords t) = 1#1 ↔ t.val % 4 = 0 :=
  (by decide +kernel : ∀ t : Fin grid0.N, k0_cond1 (grid0.coords t) = 1#1 ↔ t.val % 4 = 0)
theorem cond2_iff : ∀ t : Fin cfg0.N, k0_cond2 (grid0.coords t) = 1#1 ↔ (t.val % 4 = 1 ∨ t.val % 4 = 2) :=
  (by decide +kernel : ∀ t : Fin grid0.N, k0_cond2 (grid0.coords t) = 1#1 ↔ (t.val % 4 = 1 ∨ t.val % 4 = 2))
theorem cond3_iff : ∀ t : Fin cfg0.N, k0_cond3 (grid0.coords t) = 1#1 ↔ t.val % 4 = 3 :=
  (by decide +kernel : ∀ t : Fin grid0.N, k0_cond3 (grid0.coords t) = 1#1 ↔ t.val % 4 = 3)

/-- The output window is never idle: every point is in one of the three cases. -/
theorem live2 : ∀ t : Fin cfg0.N, cfg0.idle 2 (grid0.coords t) = false := by decide +kernel
theorem live1 : ∀ t : Fin cfg0.N, cfg0.idle 1 (grid0.coords t) = false := by decide +kernel
theorem live0 : ∀ t : Fin cfg0.N, cfg0.idle 0 (grid0.coords t) = false := by decide +kernel

end Cert.KernelIdeal.Step

end
-- ==== Proof.LibERealSum.lean ====
/-
  Finite sums of products on the extended reals, when every entry is a real number.

  The coercion of ℝ into the extended reals commutes with finite sums (by induction on the index set: it commutes with the
  sum of two reals and sends 0 to 0), and with products. So an identity between finite sums of products of reals holds on
  the extended reals as soon as every entry involved is the image of a real: a common real factor q of the second operands
  moves out of the sum, Σ_k a_k · (b_k · q) = q · Σ_k a_k · b_k. Without that hypothesis the identity fails: with q = ⊤, one
  b_k · a_k positive and another negative, the left side adds ⊤ and ⊥ while the right side multiplies ⊤ by a real.
-/
import Idealize.ShloMosaic.PureOps.Ideal

open scoped BigOperators

namespace Idealize.ShloMosaic.ERealSum

/-- The coercion of the reals into the extended reals commutes with finite sums. -/
theorem coe_finset_sum {ι : Type*} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- A common real factor of the second operands moves out of a finite sum of products of reals. -/
theorem sum_mul_scaled {ι : Type*} [Fintype ι] (a b : ι → EReal) (q : EReal)
    (ha : ∀ k, ∃ r : ℝ, a k = r) (hb : ∀ k, ∃ r : ℝ, b k = r) (hq : ∃ r : ℝ, q = r) :
    ∑ k, a k * (b k * q) = q * ∑ k, a k * b k := by
  choose a' ha using ha
  choose b' hb using hb
  obtain ⟨q', rfl⟩ := hq
  simp only [ha, hb, ← EReal.coe_mul, ← coe_finset_sum]
  congr 1
  rw [Finset.mul_sum]
  exact Finset.sum_congr rfl fun k _ => by ring

end Idealize.ShloMosaic.ERealSum
-- ==== Proof.CosSpec.lean ====
import Idealize.ShloMosaic.PureOps.Ideal
import Idealize.ShloMosaic.Lib.IdealHost
import proofs.«123097_g82910048682286_cont_9to1c4b_726_13_alg».proof.Proof.LibERealSum

/-!
# Nearest-centroid cosine distance: the two ways of normalising, and why they agree

For a code row `a` and a centroid `x` (both of 64 entries) there are two spellings of the cosine
similarity with a floor `ε` on the norm:

* **scaled**  : `(Σ a·x) · (max (Σ x²) ε²)^(-1/2)`   — normalise the dot product afterwards;
* **normed**  : `Σ a · (x / max (√(Σ x²)) ε)`         — normalise the centroid first.

On real entries they are one number: the square root is monotone, so
`√(max n ε²) = max (√n) ε` for `ε > 0`, and a common real factor moves out of a finite sum. (With an
infinite entry the second step fails, which is why the entries are asked to be real.)

The distance to a class of four centroids is then `1 - max` of the four similarities, or the minimum
(from `+∞`) of the four `1 - similarity`: again one number, since `t ↦ 1 - t` reverses the order.

`ε` is the binary32 number nearest `10⁻¹²`, that is `9223372 · 2⁻⁶³`, and `ε²` its exact square
`5316911940649 · 2⁻¹²²`.
-/

noncomputable section

namespace Cert.CosCodebook

open Idealize.ShloMosaic
open scoped BigOperators

/-- The floor on a centroid's norm, as a real: `9223372 · 2⁻⁶³`. -/
def epsReal : ℝ := 9223372 / 9223372036854775808

theorem epsReal_pos : 0 < epsReal := by unfold epsReal; norm_num

/-- The floor as the reference carries it: the binary32 word nearest `10⁻¹²`. -/
def epsRef : EReal := Ideal.ofBits .f32 0x2B8CBCCC#32

/-- Its square, exactly, as the kernel's floor on the squared norm is read. -/
def epsSq : EReal := ((5316911940649 / 5316911983139663491615228241121378304 : ℝ) : EReal)

theorem epsRef_eq : epsRef = (epsReal : EReal) := by
  unfold epsRef epsReal
  simp [Ideal.ofBits, Ideal.ieee, -EReal.coe_mul]; norm_num

theorem epsSq_eq : epsSq = ((epsReal ^ 2 : ℝ) : EReal) := by
  unfold epsSq epsReal; norm_num

/-- The dot product normalised afterwards. -/
def simScaled (a x : Fin 64 → EReal) : EReal :=
  (∑ d, a d * x d) * Ideal.rsqrt (max (∑ d, x d * x d) epsSq)

/-- The dot product with the centroid normalised first. -/
def simNormed (a x : Fin 64 → EReal) : EReal :=
  ∑ d, a d * Ideal.div (x d) (max (Ideal.sqrt (∑ e, x e * x e)) epsRef)

/-- `√` is monotone, so it moves through a maximum; and `√(ε²) = ε`. -/
theorem real_inv_sqrt_max (n D : ℝ) (hD : 0 < D) :
    (Real.sqrt (max n (D ^ 2)))⁻¹ = 1 / max (Real.sqrt n) D := by
  have hm : Monotone Real.sqrt := fun _ _ h => Real.sqrt_le_sqrt h
  rw [hm.map_max, Real.sqrt_sq hD.le, one_div]

theorem coe_max (x y : ℝ) : ((max x y : ℝ) : EReal) = max (x : EReal) (y : EReal) :=
  EReal.coe_strictMono.monotone.map_max

/-- On real entries the two similarities are one real number. -/
theorem sim_eq (a x : Fin 64 → EReal) (ha : ∀ d, ∃ r : ℝ, a d = r) (hx : ∀ d, ∃ r : ℝ, x d = r) :
    simScaled a x = simNormed a x ∧ ∃ r : ℝ, simNormed a x = r := by
  choose a' ha using ha
  choose x' hx using hx
  have hn : (0 : ℝ) ≤ ∑ d, x' d * x' d := Finset.sum_nonneg fun d _ => mul_self_nonneg _
  have hsq : (∑ d, x d * x d) = ((∑ d, x' d * x' d : ℝ) : EReal) := by
    simp only [hx, ← EReal.coe_mul, ← ERealSum.coe_finset_sum]
  have hM : 0 < max (Real.sqrt (∑ d, x' d * x' d)) epsReal := lt_max_of_lt_right epsReal_pos
  have hden : max (Ideal.sqrt (∑ e, x e * x e)) epsRef
      = ((max (Real.sqrt (∑ d, x' d * x' d)) epsReal : ℝ) : EReal) := by
    rw [hsq, Ideal.sqrt_coe, if_neg (not_lt.mpr hn), epsRef_eq, ← coe_max]
  have href : simNormed a x
      = (((∑ d, a' d * x' d) * (1 / max (Real.sqrt (∑ d, x' d * x' d)) epsReal) : ℝ) : EReal) := by
    unfold simNormed
    rw [hden]
    simp only [Ideal.div_coe hM.ne', ha, hx, ← EReal.coe_mul, ← ERealSum.coe_finset_sum]
    congr 1
    rw [Finset.sum_mul]; exact Finset.sum_congr rfl fun d _ => by ring
  refine ⟨?_, _, href⟩
  rw [href]; unfold simScaled
  have hpos : 0 < max (∑ d, x' d * x' d) (epsReal ^ 2) := lt_max_of_lt_right (pow_pos epsReal_pos 2)
  rw [hsq, epsSq_eq, ← coe_max, Ideal.rsqrt_coe, if_neg (not_lt.mpr hpos.le), if_neg hpos.ne',
    real_inv_sqrt_max _ epsReal epsReal_pos]
  simp only [ha, hx, ← EReal.coe_mul, ← ERealSum.coe_finset_sum]

/-- Over four reals, the minimum from `+∞` of `1 - r k` is `1 -` the maximum of the `r k`. -/
theorem fold_min_one_sub (r : Fin 4 → ℝ) :
    (Finset.univ : Finset (Fin 4)).fold min (⊤ : EReal) (fun k => ((1 - r k : ℝ) : EReal))
      = ((1 - max (max (max (r 0) (r 1)) (r 2)) (r 3) : ℝ) : EReal) := by
  apply le_antisymm
  · rw [Finset.fold_min_le]; right
    rcases max_choice (max (max (r 0) (r 1)) (r 2)) (r 3) with h3 | h3
    · rcases max_choice (max (r 0) (r 1)) (r 2) with h2 | h2
      · rcases max_choice (r 0) (r 1) with h1 | h1
        · exact ⟨0, Finset.mem_univ _, by rw [h3, h2, h1]⟩
        · exact ⟨1, Finset.mem_univ _, by rw [h3, h2, h1]⟩
      · exact ⟨2, Finset.mem_univ _, by rw [h3, h2]⟩
    · exact ⟨3, Finset.mem_univ _, by rw [h3]⟩
  · rw [Finset.le_fold_min]
    refine ⟨le_top, fun k _ => EReal.coe_le_coe_iff.mpr ?_⟩
    have h0 : r 0 ≤ max (max (max (r 0) (r 1)) (r 2)) (r 3) :=
      le_max_of_le_left (le_max_of_le_left (le_max_left _ _))
    have h1 : r 1 ≤ max (max (max (r 0) (r 1)) (r 2)) (r 3) :=
      le_max_of_le_left (le_max_of_le_left (le_max_right _ _))
    have h2 : r 2 ≤ max (max (max (r 0) (r 1)) (r 2)) (r 3) := le_max_of_le_left (le_max_right _ _)
    have h3 : r 3 ≤ max (max (max (r 0) (r 1)) (r 2)) (r 3) := le_max_right _ _
    have hall : r k ≤ max (max (max (r 0) (r 1)) (r 2)) (r 3) := by
      match k with
      | ⟨0, _⟩ => exact h0
      | ⟨1, _⟩ => exact h1
      | ⟨2, _⟩ => exact h2
      | ⟨3, _⟩ => exact h3
    linarith

/-- The distance to a class of four centroids, both ways, on real entries. -/
theorem dist_eq (a : Fin 64 → EReal) (X : Fin 4 → Fin 64 → EReal) (ha : ∀ d, ∃ r : ℝ, a d = r)
    (hX : ∀ k d, ∃ r : ℝ, X k d = r) :
    (1 : EReal) - max (max (max (simScaled a (X 0)) (simScaled a (X 1))) (simScaled a (X 2))) (simScaled a (X 3))
      = (Finset.univ : Finset (Fin 4)).fold min (Ideal.ofBits .f32 0x7F800000#32) (fun k => (1 : EReal) - simNormed a (X k)) := by
  have hs : ∀ k, simScaled a (X k) = simNormed a (X k) := fun k => (sim_eq a (X k) ha (hX k)).1
  have hr : ∀ k, ∃ r : ℝ, simNormed a (X k) = r := fun k => (sim_eq a (X k) ha (hX k)).2
  choose r hr using hr
  have htop : Ideal.ofBits .f32 0x7F800000#32 = (⊤ : EReal) := by simp [Ideal.ofBits, Ideal.ieee]
  simp only [hs, hr, htop]
  rw [show (1 : EReal) = ((1 : ℝ) : EReal) from rfl]
  simp only [← coe_max, ← EReal.coe_sub]
  exact (fold_min_one_sub r).symm

end Cert.CosCodebook

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.PayIdeal.lean ====
import proofs.«123097_g82910048682286_cont_9to1c4b_726_13_alg».proof.Proof.Gen.KernelIdeal.Skeleton
import proofs.«123097_g82910048682286_cont_9to1c4b_726_13_alg».proof.Proof.CosSpec
import proofs.«123097_g82910048682286_cont_9to1c4b_726_13_alg».proof.Proof.LibPlainDot
import Idealize.ShloMosaic.Lib.ValueIdx
import Idealize.ShloMosaic.Lib.ValueLayout
import Idealize.ShloMosaic.Lib.IdealHost
import Idealize.ShloMosaic.PureOps.IdealRules

/-!
# The body's arithmetic, entry by entry, over the extended reals

Entry `(b, j)` of the slab's scaled similarities depends on row `b` of the codes block and on column
`j` of the slab only: both matrix products contract over the 64 rows of the slab, so column `j` of
either product reads column `j` of the slab and nothing else. The entry is the scaled similarity of
that row with that column. The two later cases take the maximum with what the output block held at
`(b, j)`, and the last subtracts from one.
-/

noncomputable section

namespace Cert.KernelIdeal.PayAt

open Idealize.ShloMosaic Idealize.ShloMosaic.ValueIdx
open Cert.KernelIdeal Cert.KernelIdeal.Gen Cert.CosCodebook
open scoped BigOperators

/-- The kernel's floor on the squared norm is read as the exact square of the reference's floor. -/
theorem epsSq_named : Named.named (F := Ideal) κ "eps_sq" (φ := .f32) 0x179ABE15#32 = epsSq :=
  IdealRules.named_const.ideal_named_scalar _ _ _ _ rfl

/-- Row `b` of a codes block. -/
def rowOf (x0 : Vec Ideal S16x64 .f32) (b : Fin 16) : Fin 64 → EReal := fun d => x0 (ix2 b d)

/-- Column `j` of a slab. -/
def colOf (x1 : Vec Ideal S1x64x10240 .f32) (j : Fin 10240) : Fin 64 → EReal := fun d => x1 (ix3 (0 : Fin 1) d j)

/-- The slab as a 64 × 10240 matrix: entry `(d, j)` is the slab's `(0, d, j)`. -/
theorem slab_matrix (x1 : Vec Ideal S1x64x10240 .f32) (d : Fin 64) (j : Fin 10240) :
    shapeCast S64x10240 x1 Facts₀.shapeCasts_S1x64x10240_S64x10240 (ix2 d j) = colOf x1 j d :=
  shapeCast_1ab_ab_apply x1 _ d j

/-- The dot products of the code rows with the slab's columns. -/
theorem dots_apply (x0 : FVec Ideal S16x64 .f32) (y : FVec Ideal S64x10240 .f32) (b : Fin 16) (j : Fin 10240) :
    matmul dot_S16x64_S64x10240_S16x10240_1_0_0_1_n_n none x0 y (constant S16x10240 .f32 0x00000000#32) (ix2 b j)
      = ∑ d : Fin 64, x0 (ix2 b d) * y (ix2 d j) :=
  PlainDot.matmul_apply_ix2 (M := 16) (K := 64) (N := 10240) none x0 y b j

/-- The squared norms of the slab's columns, as a product with a row of ones. -/
theorem norms_apply (o : FVec Ideal S1x64 .f32) (y : FVec Ideal S64x10240 .f32) (j : Fin 10240) :
    matmul dot_S1x64_S64x10240_S1x10240_1_0_0_1_n_n none o y (constant S1x10240 .f32 0x00000000#32) (ix2 (0 : Fin 1) j)
      = ∑ d : Fin 64, o (ix2 (0 : Fin 1) d) * y (ix2 d j) :=
  PlainDot.matmul_apply_ix2 (M := 1) (K := 64) (N := 10240) none o y 0 j

/-- Entry `(b, j)` of the slab's scaled similarities. -/
theorem pay1_apply (x0 : Vec Ideal S16x64 .f32) (x1 : Vec Ideal S1x64x10240 .f32) (b : Fin 16) (j : Fin 10240) :
    k0_pay1 (F := Ideal) x0 x1 (ix2 b j) = simScaled (rowOf x0 b) (colOf x1 j) := by
  unfold k0_pay1 simScaled
  rw [mulf_apply, dots_apply, broadcastTo_1b_ab_apply]
  unfold rsqrt
  rw [maximumf_apply, norms_apply]
  refine congrArg₂ (· * ·)
    (Finset.sum_congr rfl fun d _ => congrArg (x0 (ix2 b d) * ·) (slab_matrix x1 d j)) ?_
  refine congrArg Ideal.rsqrt (congrArg₂ max (Finset.sum_congr rfl fun d _ => ?_) ?_)
  · show Ideal.ofBits .f32 0x3F800000#32 * (shapeCast S64x10240 x1 _ (ix2 d j) * shapeCast S64x10240 x1 _ (ix2 d j)) = _
    rw [Ideal.ofBits_one_f32, one_mul]
    exact congrArg₂ (· * ·) (slab_matrix x1 d j) (slab_matrix x1 d j)
  · exact epsSq_named

/-- Entry `(b, j)` of the running maximum. -/
theorem pay2_apply (x0 : Vec Ideal S16x64 .f32) (x1 : Vec Ideal S1x64x10240 .f32) (y : Vec Ideal S16x10240 .f32)
    (b : Fin 16) (j : Fin 10240) :
    k0_pay2 (F := Ideal) x0 x1 y (ix2 b j) = max (y (ix2 b j)) (simScaled (rowOf x0 b) (colOf x1 j)) := by
  unfold k0_pay2
  rw [maximumf_apply, shapeCast_self, pay1_apply]

/-- Entry `(b, j)` of the distance: one minus the final maximum. -/
theorem pay3_apply (x0 : Vec Ideal S16x64 .f32) (x1 : Vec Ideal S1x64x10240 .f32) (y : Vec Ideal S16x10240 .f32)
    (b : Fin 16) (j : Fin 10240) :
    k0_pay3 (F := Ideal) x0 x1 y (ix2 b j) = (1 : EReal) - max (y (ix2 b j)) (simScaled (rowOf x0 b) (colOf x1 j)) := by
  unfold k0_pay3
  rw [subf_apply, maximumf_apply, shapeCast_self, pay1_apply, broadcast_apply]
  show Ideal.ofBits .f32 0x3F800000#32 - _ = _
  rw [Ideal.ofBits_one_f32]

end Cert.KernelIdeal.PayAt

end
-- ==== Proof.DataIdeal.lean ====
import proofs.«123097_g82910048682286_cont_9to1c4b_726_13_alg».proof.Proof.StepIdeal
import proofs.«123097_g82910048682286_cont_9to1c4b_726_13_alg».proof.Proof.PayIdeal
import Idealize.ShloMosaic.Lib.Pipeline.Frame

/-!
# The idealized kernel, point by point: what the output block carries

Forty points: ten column blocks of 10240 classes, and within each the four centroid slabs
`k = 0, 1, 2, 3`. Along `k` the output block carries the running maximum of the slabs' scaled
similarities, and at `k = 3` it is turned into the distance and written back.

The last column block holds 7840 classes only. There the slab's buffer, past column 7840, holds
whatever the fetch's overwrite left, and so does the output block past that column (the body computes
there on those words). None of it matters: entry `(b, j)` of every quantity reads column `j` of the
slab and entry `(b, j)` of the carried block, nothing else; so the columns inside the array never see
the others, and only they are written back. The carried block is therefore *defined* with zeros standing
past the array's end, and the body is shown to leave a block that agrees with it on the columns inside.
-/

set_option maxRecDepth 16384

noncomputable section

namespace Cert.KernelIdeal.Data

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen Cert.KernelIdeal.Step Cert.KernelIdeal.PayAt Cert.CosCodebook
open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-! ## How much of a block lies inside the arrays -/

/-- The columns of point `t`'s column block that lie inside the array: all 10240, but 7840 in the last block. -/
abbrev cols (t : Fin cfg0.N) : Nat := if t.val / 4 = 9 then 7840 else 10240

/-- What the slab's transfers move: the one plane, all 64 rows, the columns inside the array. -/
theorem slabMoved : ∀ t : Fin cfg0.N, win0_1.xsize (grid0.coords t) 0 = 1 ∧ win0_1.xsize (grid0.coords t) 1 = 64
    ∧ win0_1.xsize (grid0.coords t) 2 = cols t :=
  (by decide +kernel : ∀ t : Fin grid0.N, win0_1.xsize (grid0.coords t) 0 = 1 ∧ win0_1.xsize (grid0.coords t) 1 = 64
    ∧ win0_1.xsize (grid0.coords t) 2 = if t.val / 4 = 9 then 7840 else 10240)

/-- What the output's write-back moves: all 16 rows, the columns inside the array. -/
theorem outMoved : ∀ t : Fin cfg0.N, win0_2.xsize (grid0.coords t) 0 = 16 ∧ win0_2.xsize (grid0.coords t) 1 = cols t :=
  (by decide +kernel : ∀ t : Fin grid0.N, win0_2.xsize (grid0.coords t) 0 = 16
    ∧ win0_2.xsize (grid0.coords t) 1 = if t.val / 4 = 9 then 7840 else 10240)

/-- The point before `t`, as the library spells it. -/
abbrev prev (t : Fin cfg0.N) : Fin cfg0.N := ⟨t.val - 1, Nat.lt_of_le_of_lt (Nat.sub_le _ _) t.isLt⟩

theorem cols_prev (t : Fin cfg0.N) (h : t.val % 4 ≠ 0) : cols (prev t) = cols t := by
  have : (t.val - 1) / 4 = t.val / 4 := by omega
  show (if (t.val - 1) / 4 = 9 then 7840 else 10240) = _
  rw [this]

/-! ## Filling past the array's end does not reach the columns inside -/

theorem fill_agree {G : Pipeline.Grid} (w : Pipeline.Window sig G) {α : Type} (i : G.Coords) (d d' : w.block.Idx → α)
    (g : (w.xblock i).Idx → α) (y : w.block.Idx) (hm : w.moved i y = true) : w.fill i d g y = w.fill i d' g y := by
  unfold Pipeline.Window.fill; rw [dif_pos hm, dif_pos hm]

theorem fill_cut_apply {G : Pipeline.Grid} (w : Pipeline.Window sig G) {α : Type} (i : G.Coords) (d C : w.block.Idx → α)
    (y : w.block.Idx) (hm : w.moved i y = true) : w.fill i d (w.cut i C) y = C y := by
  unfold Pipeline.Window.fill; rw [dif_pos hm]

theorem slab_moved (t : Fin cfg0.N) (d : Fin 64) (j : Fin 10240) (hj : j.val < cols t) :
    win0_1.moved (grid0.coords t) (ix3 (0 : Fin 1) d j) = true := by
  obtain ⟨e0, e1, e2⟩ := slabMoved t
  refine (win0_1.moved_iff _ _).mpr fun a => ?_
  match a with
  | ⟨0, _⟩ => exact lt_of_lt_of_eq Nat.one_pos e0.symm
  | ⟨1, _⟩ => exact lt_of_lt_of_eq d.isLt e1.symm
  | ⟨2, _⟩ => exact lt_of_lt_of_eq hj e2.symm

theorem out_moved (t : Fin cfg0.N) (b : Fin 16) (j : Fin 10240) (hj : j.val < cols t) :
    win0_2.moved (grid0.coords t) (ix2 b j) = true := by
  obtain ⟨e0, e1⟩ := outMoved t
  refine (win0_2.moved_iff _ _).mpr fun a => ?_
  match a with
  | ⟨0, _⟩ => exact lt_of_lt_of_eq b.isLt e0.symm
  | ⟨1, _⟩ => exact lt_of_lt_of_eq hj e1.symm

/-! ## The proof data -/

/-- A slab as its fetch leaves it, zeros standing past the array's end. -/
def slab (c : Dev nD) (t : Fin cfg0.N) : S1x64x10240.Idx → EReal :=
  win0_1.fill (grid0.coords t) (fun _ => (0 : EReal)) (iblk m c 1 t)

/-- Column `j` of a slab's buffer, for `j` inside the array, is the block's column whatever stands past the end. -/
theorem col_agree (c : Dev nD) (t : Fin cfg0.N) (d1 : S1x64x10240.Idx → EReal) (j : Fin 10240) (hj : j.val < cols t) :
    colOf (win0_1.fill (grid0.coords t) d1 (iblk m c 1 t)) j = colOf (slab m c t) j :=
  funext fun d => by
    show win0_1.fill (grid0.coords t) d1 (iblk m c 1 t) (ix3 (0 : Fin 1) d j)
      = win0_1.fill (grid0.coords t) (fun _ => (0 : EReal)) (iblk m c 1 t) (ix3 (0 : Fin 1) d j)
    exact fill_agree win0_1 _ _ _ _ _ (slab_moved t d j hj)

/-- What the output block carries after point `n`: the slab's similarities at `k = 0`, the running maximum at
    `k = 1, 2`, the distance at `k = 3`. -/
def carried (c : Dev nD) : (n : Nat) → n < cfg0.N → Vec Ideal S16x10240 .f32
  | 0, h => k0_pay1 (iblk m c 0 ⟨0, h⟩) (slab m c ⟨0, h⟩)
  | n + 1, h =>
    if (n + 1) % 4 = 0 then k0_pay1 (iblk m c 0 ⟨n + 1, h⟩) (slab m c ⟨n + 1, h⟩)
    else if (n + 1) % 4 = 3 then
      k0_pay3 (iblk m c 0 ⟨n + 1, h⟩) (slab m c ⟨n + 1, h⟩) (carried c n (Nat.lt_of_succ_lt h))
    else k0_pay2 (iblk m c 0 ⟨n + 1, h⟩) (slab m c ⟨n + 1, h⟩) (carried c n (Nat.lt_of_succ_lt h))

theorem carried_first (c : Dev nD) (t : Fin cfg0.N) (h0 : t.val % 4 = 0) :
    carried m c t.val t.isLt = k0_pay1 (iblk m c 0 t) (slab m c t) := by
  obtain ⟨n, h⟩ := t
  cases n with
  | zero => rfl
  | succ n => rw [carried]; exact if_pos h0

theorem carried_mid (c : Dev nD) (t : Fin cfg0.N) (h0 : t.val % 4 ≠ 0) (h3 : t.val % 4 ≠ 3) :
    carried m c t.val t.isLt = k0_pay2 (iblk m c 0 t) (slab m c t) (carried m c (prev t).val (prev t).isLt) := by
  obtain ⟨n, h⟩ := t
  cases n with
  | zero => exact absurd rfl h0
  | succ n => rw [carried]; rw [if_neg h0, if_neg h3]; rfl

theorem carried_last (c : Dev nD) (t : Fin cfg0.N) (h3 : t.val % 4 = 3) :
    carried m c t.val t.isLt = k0_pay3 (iblk m c 0 t) (slab m c t) (carried m c (prev t).val (prev t).isLt) := by
  obtain ⟨n, h⟩ := t
  cases n with
  | zero => exact absurd h3 (by show ¬ (0 % 4 = 3); decide)
  | succ n => rw [carried]; rw [if_neg (by show ¬ (n + 1) % 4 = 0; have : (n + 1) % 4 = 3 := h3; omega), if_pos h3]; rfl

/-- The proof data: the arrays as the region finds them; after the body the codes buffer at its block, the slab
    buffer at the slab, the output buffer at the carried block. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => slab m c t
    | ⟨2, _⟩ => carried m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = slab m c t := by dsimp only [dats]
theorem after2 (c : Dev nD) (t : Fin cfg0.N) : (dats m 0 c).after 2 t = carried m c t.val t.isLt := by dsimp only [dats]

/-- The codes block is found in place at every point. -/
theorem before0 (c : Dev nD) (t : Fin cfg0.N) (d) : (dats m 0 c).before 0 t d = iblk m c 0 t :=
  before0_0_of m (dats m 0 c) (A_eq m c 0) (after0 m c) t d

/-- The slab is fetched at every point: the block on the columns inside the array, `d` past them. -/
theorem before1 (c : Dev nD) (t : Fin cfg0.N) (d) :
    (dats m 0 c).before 1 t d = win0_1.fill (grid0.coords t) d (iblk m c 1 t) := by
  rw [(dats m 0 c).before_fetched 1 t (fetch0_1 t)]
  unfold Dat.fetched Dat.blockOf iblk; rw [A_eq]

/-- At `k = 0` the output buffer is fresh: the first point, or the point after a write-back. -/
theorem before2_fresh (c : Dev nD) (t : Fin cfg0.N) (h0 : t.val % 4 = 0) (d) : (dats m 0 c).before 2 t d = d :=
  (dats m 0 c).before_out_reset 2 rfl t (by
    by_cases ht : t.val = 0
    · exact .inl ht
    · exact .inr ⟨ht, (flush0_2 (prev t)).mpr (by show (t.val - 1) % 4 = 3; omega)⟩) d

/-- At `k > 0` it holds what the point before left, on the columns inside the array. -/
theorem before2_kept (c : Dev nD) (t : Fin cfg0.N) (h0 : t.val % 4 ≠ 0) (d) :
    (dats m 0 c).before 2 t d
      = win0_2.fill (grid0.coords (prev t)) d (win0_2.cut (grid0.coords (prev t)) (carried m c (prev t).val (prev t).isLt)) := by
  have ht : t.val ≠ 0 := fun h => h0 (by rw [h])
  have hfl : (cfg0.win 2).flush (prev t) = false := by
    cases hf : (cfg0.win 2).flush (prev t) with
    | false => rfl
    | true => have := (flush0_2 (prev t)).mp hf; have : (t.val - 1) % 4 = 3 := this; omega
  rw [(dats m 0 c).before_of_pos 2 t ht ((cfg0.win 2).fetch_out rfl t), hfl, if_neg Bool.false_ne_true]
  unfold Dat.left
  rw [live2 (prev t)]
  unfold Dat.kept
  rw [after2]

end Cert.KernelIdeal.Data

end
-- ==== Proof.ObligationIdeal.lean ====
import proofs.«123097_g82910048682286_cont_9to1c4b_726_13_alg».proof.Proof.DataIdeal

/-!
# The idealized kernel's body, at every point, leaves the carried block

At each point the body is handed the codes block, the slab as fetched (anything past the array's end),
and the output block as the point before left it (anything past the array's end). What it leaves in
the output block agrees, on the columns inside the array, with the carried block defined from zeros:
entry `(b, j)` reads column `j` only.
-/

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen Cert.KernelIdeal.Step Cert.KernelIdeal.PayAt Cert.KernelIdeal.Data Cert.CosCodebook
open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-- An index of the part of the output block that is written back, by coordinates: a row, and a column inside the array. -/
theorem moved_ix (t : Fin cfg0.N) (y : (win0_2.xblock (grid0.coords t)).Idx) :
    ∃ (b : Fin 16) (j : Fin 10240), j.val < cols t ∧ win0_2.xinj (grid0.coords t) y = ix2 b j := by
  obtain ⟨e0, e1⟩ := outMoved t
  have h0 : (y 0).val < 16 := lt_of_lt_of_eq (y 0).isLt e0
  have h1 : (y 1).val < cols t := lt_of_lt_of_eq (y 1).isLt e1
  have hc : cols t ≤ 10240 := by show (if _ then _ else _) ≤ _; split <;> omega
  refine ⟨⟨(y 0).val, h0⟩, ⟨(y 1).val, lt_of_lt_of_le h1 hc⟩, h1, ?_⟩
  funext a; apply Fin.ext
  match a with
  | ⟨0, _⟩ => rfl
  | ⟨1, _⟩ => rfl

/-- `k = 0`: whatever stood past the slab's end, the block left is the carried one on the columns inside. -/
theorem first_cut (c : Dev nD) (t : Fin cfg0.N) (h0 : t.val % 4 = 0) (d1 : S1x64x10240.Idx → EReal) :
    win0_2.cut (grid0.coords t) (k0_pay1 (F := Ideal) (iblk m c 0 t) (win0_1.fill (grid0.coords t) d1 (iblk m c 1 t)))
      = win0_2.cut (grid0.coords t) (carried m c t.val t.isLt) := by
  rw [carried_first m c t h0]
  funext y
  obtain ⟨b, j, hj, e⟩ := moved_ix t y
  show k0_pay1 _ _ (win0_2.xinj (grid0.coords t) y) = k0_pay1 _ _ (win0_2.xinj (grid0.coords t) y)
  rw [e, pay1_apply, pay1_apply, col_agree m c t d1 j hj]

/-- `0 < k < 3`: likewise for the running maximum, whatever stood past the end of the slab or of the block carried in. -/
theorem mid_cut (c : Dev nD) (t : Fin cfg0.N) (h0 : t.val % 4 ≠ 0) (h3 : t.val % 4 ≠ 3)
    (d1 : S1x64x10240.Idx → EReal) (d2 : S16x10240.Idx → EReal) :
    win0_2.cut (grid0.coords t) (k0_pay2 (F := Ideal) (iblk m c 0 t) (win0_1.fill (grid0.coords t) d1 (iblk m c 1 t))
        (win0_2.fill (grid0.coords (prev t)) d2 (win0_2.cut (grid0.coords (prev t)) (carried m c (prev t).val (prev t).isLt))))
      = win0_2.cut (grid0.coords t) (carried m c t.val t.isLt) := by
  rw [carried_mid m c t h0 h3]
  funext y
  obtain ⟨b, j, hj, e⟩ := moved_ix t y
  show k0_pay2 _ _ _ (win0_2.xinj (grid0.coords t) y) = k0_pay2 _ _ _ (win0_2.xinj (grid0.coords t) y)
  rw [e, pay2_apply, pay2_apply, col_agree m c t d1 j hj,
    fill_cut_apply win0_2 _ d2 _ (ix2 b j) (out_moved (prev t) b j (by rw [cols_prev t h0]; exact hj))]

/-- `k = 3`: and for the distance. -/
theorem last_cut (c : Dev nD) (t : Fin cfg0.N) (h3 : t.val % 4 = 3)
    (d1 : S1x64x10240.Idx → EReal) (d2 : S16x10240.Idx → EReal) :
    win0_2.cut (grid0.coords t) (k0_pay3 (F := Ideal) (iblk m c 0 t) (win0_1.fill (grid0.coords t) d1 (iblk m c 1 t))
        (win0_2.fill (grid0.coords (prev t)) d2 (win0_2.cut (grid0.coords (prev t)) (carried m c (prev t).val (prev t).isLt))))
      = win0_2.cut (grid0.coords t) (carried m c t.val t.isLt) := by
  rw [carried_last m c t h3]
  funext y
  obtain ⟨b, j, hj, e⟩ := moved_ix t y
  show k0_pay3 _ _ _ (win0_2.xinj (grid0.coords t) y) = k0_pay3 _ _ _ (win0_2.xinj (grid0.coords t) y)
  rw [e, pay3_apply, pay3_apply, col_agree m c t d1 j hj,
    fill_cut_apply win0_2 _ d2 _ (ix2 b j) (out_moved (prev t) b j (by rw [cols_prev t (by omega)]; exact hj))]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        (win0_1.fill (grid0.coords t) d (win0_1.cut (grid0.coords t) ((dats m 0 c).after 1 t))))
    ∗ (∃ d, owns (c : Thread nD τ) (st0_2 t) fullShare
        (win0_2.fill (grid0.coords t) d (win0_2.cut (grid0.coords t) ((dats m 0 c).after 2 t)))))

set_option maxHeartbeats 1000000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, after0, after1, after2]
  rw [show (dats m 0 c).Φ t.succ = (dats m 0 c).Φ t.castSucc from rfl,
    show (dats m 0 c).owesAt () t.succ = (dats m 0 c).owesAt () t.castSucc from rfl]
  have hcut : ∀ d, win0_1.fill (grid0.coords t) d (win0_1.cut (grid0.coords t) (slab m c t))
      = win0_1.fill (grid0.coords t) d (iblk m c 1 t) := fun d => by
    unfold slab; rw [Window.cut_fill]
  simp only [hcut]
  iintro ⟨HΦ, Ho, ⟨%d0, H0⟩, ⟨%d1, H1⟩, ⟨%d2, H2⟩⟩
  by_cases k0 : t.val % 4 = 0
  · rw [before2_fresh m c t k0 d2]
    iapply (runFirst c (grid0.coords t) _ _ _ _ _ _ ((cond1_iff t).mpr k0)
      (fun h => by have := (cond2_iff t).mp h; omega) (fun h => by have := (cond3_iff t).mp h; omega)
      (iblk m c 0 t) (win0_1.fill (grid0.coords t) d1 (iblk m c 1 t)) d2 Set.univ _)
    isplitl [H0 H1 H2]
    · isplitl [H0]; · iexact H0
      isplitl [H1]; · iexact H1
      iexact H2
    iintro ⟨H0, H1, H2⟩
    isplitl [HΦ]; · iexact HΦ
    isplitl [Ho]; · iexact Ho
    isplitl [H0]; · iexact H0
    isplitl [H1]; · iexists d1; iexact H1
    iexists (k0_pay1 (F := Ideal) (iblk m c 0 t) (win0_1.fill (grid0.coords t) d1 (iblk m c 1 t)))
    rw [win0_2.fill_congr_cut _ (first_cut m c t k0 d1)]
    iexact H2
  · rw [before2_kept m c t k0 d2]
    by_cases k3 : t.val % 4 = 3
    · iapply (runLast c (grid0.coords t) _ _ _ _ _ _ (fun h => k0 ((cond1_iff t).mp h))
        (fun h => by have := (cond2_iff t).mp h; omega) ((cond3_iff t).mpr k3)
        (iblk m c 0 t) (win0_1.fill (grid0.coords t) d1 (iblk m c 1 t))
        (win0_2.fill (grid0.coords (prev t)) d2 (win0_2.cut (grid0.coords (prev t)) (carried m c (prev t).val (prev t).isLt))) Set.univ _)
      isplitl [H0 H1 H2]
      · isplitl [H0]; · iexact H0
        isplitl [H1]; · iexact H1
        iexact H2
      iintro ⟨H0, H1, H2⟩
      isplitl [HΦ]; · iexact HΦ
      isplitl [Ho]; · iexact Ho
      isplitl [H0]; · iexact H0
      isplitl [H1]; · iexists d1; iexact H1
      iexists (k0_pay3 (F := Ideal) (iblk m c 0 t) (win0_1.fill (grid0.coords t) d1 (iblk m c 1 t))
        (win0_2.fill (grid0.coords (prev t)) d2 (win0_2.cut (grid0.coords (prev t)) (carried m c (prev t).val (prev t).isLt))))
      rw [win0_2.fill_congr_cut _ (last_cut m c t k3 d1 d2)]
      iexact H2
    · iapply (runMid c (grid0.coords t) _ _ _ _ _ _ (fun h => k0 ((cond1_iff t).mp h))
        ((cond2_iff t).mpr (by have := Nat.mod_lt t.val (show 0 < 4 by decide); omega)) (fun h => k3 ((cond3_iff t).mp h))
        (iblk m c 0 t) (win0_1.fill (grid0.coords t) d1 (iblk m c 1 t))
        (win0_2.fill (grid0.coords (prev t)) d2 (win0_2.cut (grid0.coords (prev t)) (carried m c (prev t).val (prev t).isLt))) Set.univ _)
      isplitl [H0 H1 H2]
      · isplitl [H0]; · iexact H0
        isplitl [H1]; · iexact H1
        iexact H2
      iintro ⟨H0, H1, H2⟩
      isplitl [HΦ]; · iexact HΦ
      isplitl [Ho]; · iexact Ho
      isplitl [H0]; · iexact H0
      isplitl [H1]; · iexists d1; iexact H1
      iexists (k0_pay2 (F := Ideal) (iblk m c 0 t) (win0_1.fill (grid0.coords t) d1 (iblk m c 1 t))
        (win0_2.fill (grid0.coords (prev t)) d2 (win0_2.cut (grid0.coords (prev t)) (carried m c (prev t).val (prev t).isLt))))
      rw [win0_2.fill_congr_cut _ (mid_cut m c t k0 k3 d1 d2)]
      iexact H2

/-- The library's body obligation, every window stated on what its transfers move. -/
theorem body_obligation (c : Dev nD) :
    BodyObligationLoose (dats m 0 c) (defs₀ (F := Ideal)) Variants.none () Set.univ := fun t => by
  rw [bigSep_W0, bigSep_W0]
  have hl : idle0 2 (grid0.coords t) = false := live2 t
  simp only [hl]
  exact sound_body m c t

end Cert.KernelIdeal.Run

end
-- ==== Proof.RunIdeal.lean ====
import proofs.«123097_g82910048682286_cont_9to1c4b_726_13_alg».proof.Proof.ObligationIdeal

/-!
# The idealized kernel's run

With the body's obligation met at every point, the pipeline's loop does the rest: every weakly fair
execution terminates, each windowed array ends at what the write-backs of the carried blocks make it,
and every other buffer ends as the region found it. The frame is that statement read at the two arguments.
-/

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen Cert.KernelIdeal.Step Cert.KernelIdeal.PayAt Cert.KernelIdeal.Data Cert.CosCodebook

variable (m : (ℓ : Loc nD τ sig) → Buf (Elt Ideal) ℓ) (ρ : Dev nD → PrngReg)

set_option maxHeartbeats 1000000 in
set_option backward.isDefEq.respectTransparency.types false in
/-- Every weakly fair execution of @main terminates, nothing faulting, each windowed array at what the proof data
    computes and every other buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame of the idealized kernel. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Run

end
-- ==== Proof.ValueIdeal.lean ====
import proofs.«123097_g82910048682286_cont_9to1c4b_726_13_alg».proof.Proof.RunIdeal
import Idealize.ShloMosaic.Lib.Pipeline.Value

/-!
# The output array in closed form

Entry `(b, cls)` of the output is the distance of code row `b` to class `cls`: one minus the largest of
the four scaled similarities of the row with columns `cls` of the four slabs of the transposed centroid
array. Point `t = 4 i + k` works on columns `10240 i …` of slab `k`; the block written back at
`t = 4 i + 3` has gone through the four slabs in order, so its entry `(b, j)` is the distance to class
`10240 i + j`. The ten written-back blocks (the last of 7840 columns) cover the 100000 classes.
-/

set_option maxRecDepth 16384

noncomputable section

namespace Cert.KernelIdeal.Final

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen Cert.KernelIdeal.Step Cert.KernelIdeal.PayAt Cert.KernelIdeal.Data Cert.KernelIdeal.Run Cert.CosCodebook
open Idealize.ShloMosaic.ValueIdx

variable (m : (ℓ : Loc nD τ sig) → Buf (Elt Ideal) ℓ) (ρ : Dev nD → PrngReg)

/-- The scaled similarity of code row `b` with centroid `k` of class `cls`, off the codes array and the transposed centroid array. -/
def simAt (A0 : S16x64.Idx → EReal) (T : S4x64x100000.Idx → EReal) (b : Fin 16) (cls : Fin 100000) (k : Fin 4) : EReal :=
  simScaled (fun d => A0 (ix2 b d)) (fun d => T (ix3 k d cls))

/-- The distance of code row `b` to class `cls`. -/
def dist (A0 : S16x64.Idx → EReal) (T : S4x64x100000.Idx → EReal) (b : Fin 16) (cls : Fin 100000) : EReal :=
  (1 : EReal) - max (max (max (simAt A0 T b cls 0) (simAt A0 T b cls 1)) (simAt A0 T b cls 2)) (simAt A0 T b cls 3)

/-- The whole output array. -/
def distances (A0 : S16x64.Idx → EReal) (T : S4x64x100000.Idx → EReal) : S16x100000.Idx → EReal :=
  fun i => dist A0 T ⟨(i 0).val, (i 0).isLt⟩ ⟨(i 1).val, (i 1).isLt⟩

theorem simAt_congr (A0 : S16x64.Idx → EReal) (T : S4x64x100000.Idx → EReal) {b b' : Fin 16} {cls cls' : Fin 100000}
    {k k' : Fin 4} (hb : b.val = b'.val) (hc : cls.val = cls'.val) (hk : k.val = k'.val) :
    simAt A0 T b cls k = simAt A0 T b' cls' k' := by
  cases Fin.ext hb; cases Fin.ext hc; cases Fin.ext hk; rfl

/-- Four similarities at indices that are, by value, row `b'`, class `cls'` and centroids 0 to 3, give the distance. -/
theorem dist_of_points (A0 : S16x64.Idx → EReal) (T : S4x64x100000.Idx → EReal) (b b' : Fin 16) (cls' c0 c1 c2 c3 : Fin 100000)
    (k0 k1 k2 k3 : Fin 4) (hb : b.val = b'.val) (h0 : c0.val = cls'.val) (h1 : c1.val = cls'.val) (h2 : c2.val = cls'.val)
    (h3 : c3.val = cls'.val) (hk0 : k0.val = 0) (hk1 : k1.val = 1) (hk2 : k2.val = 2) (hk3 : k3.val = 3) :
    (1 : EReal) - max (max (max (simAt A0 T b c0 k0) (simAt A0 T b c1 k1)) (simAt A0 T b c2 k2)) (simAt A0 T b c3 k3)
      = dist A0 T b' cls' := by
  unfold dist
  rw [simAt_congr A0 T (k' := (0 : Fin 4)) hb h0 hk0, simAt_congr A0 T (k' := (1 : Fin 4)) hb h1 hk1,
    simAt_congr A0 T (k' := (2 : Fin 4)) hb h2 hk2, simAt_congr A0 T (k' := (3 : Fin 4)) hb h3 hk3]

/-- The printed index maps over the grid: the codes block never moves; the slab is plane `t mod 4`, column block
    `t / 4`; the output block is column block `t / 4`. -/
theorem idx_facts : ∀ t : Fin cfg0.N, win0_0.index t (0 : Fin 2) = 0 ∧ win0_0.index t (1 : Fin 2) = 0
    ∧ win0_1.index t (0 : Fin 3) = t.val % 4 ∧ win0_1.index t (1 : Fin 3) = 0 ∧ win0_1.index t (2 : Fin 3) = t.val / 4
    ∧ win0_2.index t (0 : Fin 2) = 0 ∧ win0_2.index t (1 : Fin 2) = t.val / 4 :=
  (by decide +kernel : ∀ t : Fin grid0.N, win0_0.index t (0 : Fin 2) = 0 ∧ win0_0.index t (1 : Fin 2) = 0
    ∧ win0_1.index t (0 : Fin 3) = t.val % 4 ∧ win0_1.index t (1 : Fin 3) = 0 ∧ win0_1.index t (2 : Fin 3) = t.val / 4
    ∧ win0_2.index t (0 : Fin 2) = 0 ∧ win0_2.index t (1 : Fin 2) = t.val / 4)

theorem pt_lt (t : Fin cfg0.N) : t.val < 40 := lt_of_lt_of_eq t.isLt N_0

theorem cls_lt (t : Fin cfg0.N) (j : Fin 10240) (hj : j.val < cols t) : t.val / 4 * 10240 + j.val < 100000 := by
  have := pt_lt t
  have hj' : j.val < (if t.val / 4 = 9 then 7840 else 10240) := hj
  split at hj' <;> omega

/-- The similarities formed at point `n`, at `(b, j)` with `j` inside the array, are those of code row `b` with
    centroid `n mod 4` of class `10240 (n / 4) + j`. -/
theorem sim_point (c : Dev nD) (n : Fin cfg0.N) (b : Fin 16) (j : Fin 10240) (hj : j.val < cols n) :
    simScaled (rowOf (iblk m c 0 n) b) (colOf (slab m c n) j)
      = simAt (V m c main_arg0) (V m c main_call0_v0) b ⟨n.val / 4 * 10240 + j.val, cls_lt n j hj⟩
          ⟨n.val % 4, Nat.mod_lt _ (by decide)⟩ := by
  obtain ⟨e00, e01, e10, e11, e12, -, -⟩ := idx_facts n
  unfold simAt
  congr 1
  · funext d
    show V m c main_arg0 (((cfg0.win 0).blk n).view.emb (ix2 b d)) = V m c main_arg0 (ix2 b d)
    congr 1; funext a; apply Fin.ext
    match a with
    | ⟨0, _⟩ => show win0_0.index n (0 : Fin 2) * 16 + 1 * b.val = b.val; omega
    | ⟨1, _⟩ => show win0_0.index n (1 : Fin 2) * 64 + 1 * d.val = d.val; omega
  · funext d
    show slab m c n (ix3 (0 : Fin 1) d j) = _
    unfold slab Pipeline.Window.fill
    rw [dif_pos (slab_moved n d j hj)]
    show V m c main_call0_v0 (((cfg0.win 1).blk n).view.emb _) = V m c main_call0_v0 _
    congr 1; funext a; apply Fin.ext
    match a with
    | ⟨0, _⟩ => show win0_1.index n (0 : Fin 3) * 1 + 1 * 0 = n.val % 4; omega
    | ⟨1, _⟩ => show win0_1.index n (1 : Fin 3) * 64 + 1 * d.val = d.val; omega
    | ⟨2, _⟩ => show win0_1.index n (2 : Fin 3) * 10240 + 1 * j.val = n.val / 4 * 10240 + j.val; omega

/-- WHAT A WRITE-BACK WRITES is its block of the distances. -/
theorem flushed_eq (c : Dev nD) (t : Fin cfg0.N) (hf : (cfg0.win 2).flush t = true) :
    (dats m 0 c).flushed 2 t
      = ((cfg0.win 2).blk t).view.read (Elt Ideal) (distances (V m c main_arg0) (V m c main_call0_v0)) := by
  have h3 : t.val % 4 = 3 := (flush0_2 t).mp hf
  have hN := pt_lt t
  obtain ⟨-, -, -, -, -, e20, e21⟩ := idx_facts t
  show (cfg0.win 2).cut (grid0.coords t) ((dats m 0 c).after 2 t) = _
  rw [after2]
  funext y
  obtain ⟨b, j, hj, e⟩ := moved_ix t y
  have hy0 : (y 0).val = b.val := congrArg (fun z : S16x10240.Idx => (z 0).val) e
  have hy1 : (y 1).val = j.val := congrArg (fun z : S16x10240.Idx => (z 1).val) e
  show carried m c t.val t.isLt (win0_2.xinj (grid0.coords t) y)
    = distances (V m c main_arg0) (V m c main_call0_v0) (((cfg0.win 2).blk t).view.emb y)
  rw [e]
  have m1 : (prev t).val % 4 = 2 := by show (t.val - 1) % 4 = 2; omega
  have m2 : (prev (prev t)).val % 4 = 1 := by show (t.val - 1 - 1) % 4 = 1; omega
  have m3 : (prev (prev (prev t))).val % 4 = 0 := by show (t.val - 1 - 1 - 1) % 4 = 0; omega
  have c1 : cols (prev t) = cols t := cols_prev t (by omega)
  have c2 : cols (prev (prev t)) = cols t := (cols_prev (prev t) (by omega)).trans c1
  have c3 : cols (prev (prev (prev t))) = cols t := (cols_prev (prev (prev t)) (by omega)).trans c2
  rw [carried_last m c t h3, pay3_apply,
    carried_mid m c (prev t) (by omega) (by omega), pay2_apply,
    carried_mid m c (prev (prev t)) (by omega) (by omega), pay2_apply,
    carried_first m c (prev (prev (prev t))) m3, pay1_apply,
    sim_point m c t b j hj, sim_point m c (prev t) b j (by rw [c1]; exact hj),
    sim_point m c (prev (prev t)) b j (by rw [c2]; exact hj),
    sim_point m c (prev (prev (prev t))) b j (by rw [c3]; exact hj)]
  have v0 : ((((cfg0.win 2).blk t).view.emb y) 0).val = b.val := by
    show win0_2.index t (0 : Fin 2) * 16 + 1 * (y 0).val = b.val; omega
  have v1 : ((((cfg0.win 2).blk t).view.emb y) 1).val = t.val / 4 * 10240 + j.val := by
    show win0_2.index t (1 : Fin 2) * 10240 + 1 * (y 1).val = _; omega
  have q1 : (t.val - 1) / 4 = t.val / 4 := by omega
  have q2 : (t.val - 1 - 1) / 4 = t.val / 4 := by omega
  have q3 : (t.val - 1 - 1 - 1) / 4 = t.val / 4 := by omega
  unfold distances
  refine dist_of_points _ _ b _ _ _ _ _ _ _ _ _ _ v0.symm ?_ ?_ ?_ ?_ m3 m2 m1 h3
  · show (t.val - 1 - 1 - 1) / 4 * 10240 + j.val = ((((cfg0.win 2).blk t).view.emb y) 1).val
    rw [v1, q3]
  · show (t.val - 1 - 1) / 4 * 10240 + j.val = ((((cfg0.win 2).blk t).view.emb y) 1).val
    rw [v1, q2]
  · show (t.val - 1) / 4 * 10240 + j.val = ((((cfg0.win 2).blk t).view.emb y) 1).val
    rw [v1, q1]
  · show t.val / 4 * 10240 + j.val = ((((cfg0.win 2).blk t).view.emb y) 1).val
    rw [v1]

/-- An index of the output array is in point `t`'s block iff each coordinate is in the block's range inside the array. -/
theorem mem_blk (t : Fin cfg0.N) (i : S16x100000.Idx) :
    i ∈ ((cfg0.win 2).blk t).view.set ↔ ∀ a : Fin 2, win0_2.index t a * S16x10240.size a ≤ (i a).val
      ∧ (i a).val < win0_2.index t a * S16x10240.size a + win0_2.xsize (grid0.coords t) a := by
  show i ∈ ((View.whole main_v0).slice (win0_2.rect t)).set ↔ _
  rw [View.set_slice_whole, Rect.mem_set_unit]
  exact Iff.rfl

/-- Every class is in the block some write-back writes: class `cls` in that of point `4 (cls / 10240) + 3`. -/
theorem cover (i : S16x100000.Idx) :
    ∃ t : Fin cfg0.N, (cfg0.win 2).flush t = true ∧ i ∈ ((cfg0.win 2).blk t).view.set := by
  have hi0 : (i 0).val < 16 := (i 0).isLt
  have hi1 : (i 1).val < 100000 := (i 1).isLt
  have hq : 4 * ((i 1).val / 10240) + 3 < cfg0.N := by show _ < grid0.N; rw [N_0]; omega
  refine ⟨⟨4 * ((i 1).val / 10240) + 3, hq⟩, (flush0_2 _).mpr (by show (4 * ((i 1).val / 10240) + 3) % 4 = 3; omega), ?_⟩
  obtain ⟨-, -, -, -, -, e20, e21⟩ := idx_facts ⟨4 * ((i 1).val / 10240) + 3, hq⟩
  obtain ⟨x0, x1⟩ := outMoved ⟨4 * ((i 1).val / 10240) + 3, hq⟩
  have e21' : win0_2.index ⟨4 * ((i 1).val / 10240) + 3, hq⟩ (1 : Fin 2) = (4 * ((i 1).val / 10240) + 3) / 4 := e21
  have x1' : win0_2.xsize (grid0.coords ⟨4 * ((i 1).val / 10240) + 3, hq⟩) 1
      = if (4 * ((i 1).val / 10240) + 3) / 4 = 9 then 7840 else 10240 := x1
  rw [mem_blk]
  intro a
  match a with
  | ⟨0, _⟩ =>
    show win0_2.index _ (0 : Fin 2) * 16 ≤ (i 0).val ∧ (i 0).val < win0_2.index _ (0 : Fin 2) * 16 + win0_2.xsize _ 0
    rw [e20, x0]; omega
  | ⟨1, _⟩ =>
    show win0_2.index _ (1 : Fin 2) * 10240 ≤ (i 1).val ∧ (i 1).val < win0_2.index _ (1 : Fin 2) * 10240 + win0_2.xsize _ 1
    rw [e21', x1']
    split <;> omega

/-- THE OUTPUT ARRAY after the run: the distances, over the arrays as the region finds them. -/
theorem final (c : Dev nD) :
    (dats m 0 c).arrAt 2 cfg0.N = distances (V m c main_arg0) (V m c main_call0_v0) :=
  (dats m 0 c).arrAt_eq_of_cover 2 _ (fun t hf => flushed_eq m c t hf) cover

end Cert.KernelIdeal.Final

end
-- ==== Proof.RefIdeal.lean ====
import proofs.«123097_g82910048682286_cont_9to1c4b_726_13_alg».proof.Proof.Gen.ReferenceIdeal.Read
import proofs.«123097_g82910048682286_cont_9to1c4b_726_13_alg».proof.Proof.CosSpec
import Idealize.ShloMosaic.Lib.IdealHost
import Idealize.ShloMosaic.PureOps.Reduce

/-!
# The reference, entry by entry

Entry `(b, cls)` of the reference's result is the minimum, from `+∞`, over the class's four centroids of one
minus the dot product of code row `b` with the centroid divided by its floored norm: the "normed"
similarity of the specification.
-/

set_option maxRecDepth 16384

noncomputable section

namespace Cert.ReferenceIdeal.RefAt

open Idealize.ShloMosaic Idealize.ShloMosaic.ValueIdx
open Cert.ReferenceIdeal Cert.ReferenceIdeal.Gen Cert.ReferenceIdeal.Read Cert.CosCodebook
open scoped BigOperators

theorem ref_apply (x0 : (⟨S16x64, .f32⟩ : BufTy).Contents (Elt Ideal)) (x1 : (⟨S100000x4x64, .f32⟩ : BufTy).Contents (Elt Ideal))
    (b : Fin 16) (cls : Fin 100000) :
    val_main_v8 (F := Ideal) x0 x1 (ix2 b cls)
      = (Finset.univ : Finset (Fin 4)).fold min (Ideal.ofBits .f32 0x7F800000#32)
          (fun k => (1 : EReal) - simNormed (fun d => x0 (ix2 b d)) (fun d => x1 (ix3 cls k d))) := by
  have hR : S16x100000x4.Reduces [2] S16x100000 := by decide
  unfold val_main_v8
  rw [Host.reduce_eq_fold_single FloatOps.minimumf _ _ Facts₀.reducesTo_S16x100000x4_S16x100000_d2 hR Facts₀.h_S_]
  have hl : ∀ k : Fin 4, hR.lift (ix2 b cls) k = ix3 b cls k := fun k => funext fun a => Fin.ext (by
    match a with
    | ⟨0, _⟩ => rfl
    | ⟨1, _⟩ => rfl
    | ⟨2, _⟩ => rfl)
  have e1 : ∀ (k : Fin 4) (d : Fin 64), lidx_main_v5 (ix3 b cls k) d = ix2 b d := fun k d => funext fun a => Fin.ext (by
    match a with
    | ⟨0, _⟩ => rfl
    | ⟨1, _⟩ => rfl)
  have e2 : ∀ (k : Fin 4) (d : Fin 64), ridx_main_v5 (ix3 b cls k) d = ix3 cls k d := fun k d => funext fun a => Fin.ext (by
    match a with
    | ⟨0, _⟩ => rfl
    | ⟨1, _⟩ => rfl
    | ⟨2, _⟩ => rfl)
  have e3 : ∀ (k : Fin 4) (d : Fin 64), idx_main_v3 (ix3 cls k d) = ix3 cls k (0 : Fin 1) := fun k d => funext fun a => Fin.ext (by
    match a with
    | ⟨0, _⟩ => rfl
    | ⟨1, _⟩ => rfl
    | ⟨2, _⟩ => rfl)
  have e4 : ∀ k : Fin 4, idx_main_call0_v2 (ix3 cls k (0 : Fin 1)) = ix2 cls k := fun k => funext fun a => Fin.ext (by
    match a with
    | ⟨0, _⟩ => rfl
    | ⟨1, _⟩ => rfl)
  have e5 : ∀ (k : Fin 4) (e : Fin 64), idx_main_call0_v1 (ix2 cls k) e = ix3 cls k e := fun k e => funext fun a => Fin.ext (by
    match a with
    | ⟨0, _⟩ => rfl
    | ⟨1, _⟩ => rfl
    | ⟨2, _⟩ => rfl)
  have hk : ∀ k : Fin 4, (val_main_v7 (F := Ideal) x0 x1 ∘ hR.lift (ix2 b cls)) k
      = (1 : EReal) - simNormed (fun d => x0 (ix2 b d)) (fun d => x1 (ix3 cls k d)) := fun k => by
    show val_main_v7 (F := Ideal) x0 x1 (hR.lift (ix2 b cls) k) = _
    rw [hl k, val_main_v7_apply, val_main_v6_apply, val_main_cst_0_apply, val_main_v5_apply]
    simp only [e1, e2, val_main_v4_apply, val_main_v3_apply, e3, val_main_v2_apply, val_main_v0_apply, val_main_v1_apply,
      val_main_cst_apply, val_main_call0_v2_apply, e4, val_main_call0_v1_apply, e5, val_main_call0_cst_apply,
      val_main_call0_v0_apply, Ideal.subf_def, Ideal.mulf_def, Ideal.hostDivf_def, Ideal.maximumf_def,
      Ideal.hostUnary_sqrt_def, Ideal.ofBits_def, Ideal.ofBits_one_f32, Ideal.ofBits_zero_f32, zero_add, simNormed, epsRef]
  exact congrArg (fun f => Finset.fold min (Ideal.ofBits .f32 0x7F800000#32) f (Finset.univ : Finset (Fin 4))) (funext hk)

end Cert.ReferenceIdeal.RefAt

end
-- ==== Proof.Bridge.lean ====
import proofs.«123097_g82910048682286_cont_9to1c4b_726_13_alg».proof.Proof.ValueIdeal
import proofs.«123097_g82910048682286_cont_9to1c4b_726_13_alg».proof.Proof.RefIdeal
import Idealize.ShloMosaic.Lib.StableHlo.Run
import Idealize.ShloMosaic.Lib.Pipeline.Value

/-!
# The kernel's distances are the reference's

The kernel works on the centroid array transposed to `[4, 64, 100000]` by a host operation before the region,
so its slab entry `(k, d, cls)` is centroid `k` of class `cls` at coordinate `d`. With that reading the kernel's
output is, entry by entry, one minus the maximum over `k` of the scaled similarities, and the reference's is
the minimum over `k` of one minus the normed similarities: equal on real entries (the specification).
-/

set_option maxRecDepth 16384

noncomputable section

namespace Cert.Bridge

open Idealize.ShloMosaic Idealize.ShloMosaic.TcCoe Idealize.ShloMosaic.ValueIdx Idealize.SL.Sem Cert.CosCodebook

section Kernel

open Cert.KernelIdeal Cert.KernelIdeal.Gen Cert.KernelIdeal.Data Cert.KernelIdeal.Run Cert.KernelIdeal.Final
open Idealize.ShloMosaic.Pipeline (Dat)

variable (m : (ℓ : Loc nD τ sig) → Buf (Elt Ideal) ℓ) (ρ : Dev nD → PrngReg)

/-- The array the slabs are cut from is the centroid argument, transposed. -/
theorem V_transposed (c : Dev nD) :
    (V m c main_call0_v0 : S4x64x100000.Idx → EReal)
      = transpose S4x64x100000 [1, 2, 0] (m ((c : Thread nD τ).loc main_arg1)) Facts₀.transposes_S100000x4x64_S4x64x100000_1_2_0 := by
  dsimp only [V, hostOps0]; after_results; rfl

/-- The idealized kernel's run with its result named: the distances over the arguments, the arguments unchanged. -/
theorem kernel_run : θ_run defs (onTc (τ := τ) (main (F := Ideal))) ⟨m, fun _ => 0, ρ⟩ fun r => ∀ c : Dev nD,
      r.2.mem ((c.tc : Thread nD τ).loc main_v0)
        = distances (m ((c.tc : Thread nD τ).loc main_arg0))
            (transpose S4x64x100000 [1, 2, 0] (m ((c.tc : Thread nD τ).loc main_arg1)) Facts₀.transposes_S100000x4x64_S4x64x100000_1_2_0)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨(((h c).1 2).trans (final m c)).trans (by rw [V_transposed m c, V_main_arg0 m c]),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

end Kernel

/-- On real entries the kernel's distances over the transposed centroids are the reference's result. -/
theorem distances_eq_reference (x0 : (⟨2, ![16, 64]⟩ : Shape).Idx → EReal) (x1 : (⟨3, ![100000, 4, 64]⟩ : Shape).Idx → EReal)
    (hT : (⟨3, ![100000, 4, 64]⟩ : Shape).Transposes [1, 2, 0] ⟨3, ![4, 64, 100000]⟩)
    (h0 : ∀ i, ∃ r : ℝ, x0 i = r) (h1 : ∀ i, ∃ r : ℝ, x1 i = r) :
    Cert.KernelIdeal.Final.distances x0 (transpose ⟨3, ![4, 64, 100000]⟩ [1, 2, 0] x1 hT)
      = Cert.ReferenceIdeal.Read.val_main_v8 (F := Ideal) x0 x1 := by
  funext i
  obtain ⟨b, cls, rfl⟩ : ∃ (b : Fin 16) (cls : Fin 100000), i = ix2 b cls := ⟨i 0, i 1, eq_ix2 i⟩
  rw [Cert.ReferenceIdeal.RefAt.ref_apply]
  show Cert.KernelIdeal.Final.dist x0 _ b cls = _
  unfold Cert.KernelIdeal.Final.dist Cert.KernelIdeal.Final.simAt
  have hT' : ∀ (k : Fin 4) (d : Fin 64),
      transpose ⟨3, ![4, 64, 100000]⟩ [1, 2, 0] x1 hT (ix3 k d cls) = x1 (ix3 cls k d) := fun k d =>
    transpose_apply _ x1 hT _ _ fun a => match a with
      | ⟨0, _⟩ => rfl
      | ⟨1, _⟩ => rfl
      | ⟨2, _⟩ => rfl
  simp only [hT']
  exact dist_eq (fun d => x0 (ix2 b d)) (fun k d => x1 (ix3 cls k d)) (fun d => h0 _) (fun k d => h1 _)

end Cert.Bridge

end
-- ==== Proof.LibFiniteTest.lean ====
/-
  The test "every entry is finite", read at one entry over the extended reals.

  A precondition `jnp.all(jnp.abs(x) < inf)` prints, per array, as a comparison of `Host.absf x` with the float word of +∞
  lifted to the array's shape. On the extended reals that word denotes ⊤ and |a| is max a (−a), which is below ⊤ exactly
  when a is neither ⊤ nor ⊥: an entry passing the test is the image of a real number.
-/
import Idealize.ShloMosaic.PureOps.Ideal.Laws
import Idealize.ShloMosaic.Lib.ValueIdx

noncomputable section

namespace Idealize.ShloMosaic.FiniteTest

/-- The rank-0 shape has one index. -/
theorem subsingleton_scalarIdx : Subsingleton (⟨0, ![]⟩ : Shape).Idx := ⟨fun a b => funext fun d => d.elim0⟩

/-- The float word of +∞ denotes ⊤. -/
theorem inf_word : Ideal.ofBits .f32 0x7F800000#32 = (⊤ : EReal) := by simp [Ideal.ofBits, Ideal.ieee]

/-- An extended real whose absolute value is below ⊤ is a real number. -/
theorem real_of_abs_lt_top (a : EReal) (h : Ideal.cmp .olt (max a (-a)) (⊤ : EReal) = 1#1) : ∃ r : ℝ, a = r := by
  induction a using EReal.rec with
  | bot => exfalso; simp [Ideal.cmp] at h
  | coe r => exact ⟨r, rfl⟩
  | top => exfalso; simp [Ideal.cmp] at h

/-- One array's test at one entry: an entry whose absolute value compares below the lifted +∞ word is a real number. -/
theorem real_of_test {s : Shape} (x : FVec Ideal s .f32)
    (hb : (⟨0, ![]⟩ : Shape).BroadcastsInDim s (![] : Fin 0 → Fin s.rank)) (i : s.Idx)
    (h : cmpf .olt (Host.absf x) (broadcastInDim s ![] hb (constant (F := Ideal) ⟨0, ![]⟩ .f32 0x7F800000#32)) i = 1#1) :
    ∃ r : ℝ, x i = r := by
  have e : Ideal.cmp .olt (max (x i) (-(x i))) (Ideal.ofBits .f32 0x7F800000#32) = 1#1 := h
  rw [inf_word] at e
  exact real_of_abs_lt_top (x i) e

end Idealize.ShloMosaic.FiniteTest

end
-- ==== Proof.FiniteIn.lean ====
import proofs.«123097_g82910048682286_cont_9to1c4b_726_13_alg».proof.Pre_finite_inputs
import proofs.«123097_g82910048682286_cont_9to1c4b_726_13_alg».proof.Proof.LibFiniteTest
import Idealize.ShloMosaic.Lib.ReduceAll
import Idealize.ShloMosaic.Lib.Affine

/-!
# The precondition, entry by entry

The precondition is the conjunction of two tests, one per argument array: the conjunction over all entries
of `|x| < +∞`. So under it every entry of both arrays is a real number.
-/

noncomputable section

namespace Cert.FiniteIn

open Idealize.ShloMosaic Cert.Pre_finite_inputs

variable [Cert.Pre_finite_inputs.Facts]

theorem entries_real (x0 : FVec Ideal S16x64 .f32) (x1 : FVec Ideal S100000x4x64 .f32)
    (h : Cert.Pre_finite_inputs.fn (F := Ideal) x0 x1 = fun _ => 1#1) :
    (∀ i, ∃ r : ℝ, x0 i = r) ∧ (∀ i, ∃ r : ℝ, x1 i = r) := by
  have h0 := congrFun h ValueIdx.ix0
  dsimp only [Cert.Pre_finite_inputs.fn] at h0
  haveI := FiniteTest.subsingleton_scalarIdx
  obtain ⟨ha, hb⟩ := IntOp.andi_eq_one.mp h0
  exact ⟨fun i => FiniteTest.real_of_test x0 _ i (Host.reduce_andi_all _ _ _ _ _ ha i),
    fun i => FiniteTest.real_of_test x1 _ i (Host.reduce_andi_all _ _ _ _ _ hb i)⟩

end Cert.FiniteIn

end
-- ==== Proof.lean ====
/-
  Nearest-centroid cosine distance, per class: a kernel against its reference.

  Inputs: codes, 16 rows of 64; centroids, 100000 classes of 4 centroids of 64. Output: for each code row
  and class, the smallest over the class's four centroids of one minus the cosine similarity, the
  centroid's norm floored at ε (the binary32 number nearest 10⁻¹²).

  The reference normalises each centroid first (x / max (‖x‖, ε)), takes the dot products, subtracts from
  one and takes the minimum over the four. The kernel streams the centroid array, transposed, in slabs of
  10240 classes for one centroid position at a time, scales each dot product afterwards by
  (max (‖x‖², ε²))^(-1/2), keeps the running maximum over the four positions in the output block and turns
  it into one minus the maximum at the fourth. Its floor on the squared norm is read as the exact square
  of the reference's floor; with that reading the two are one function of real inputs:
  √ is monotone, so √(max (n, ε²)) = max (√n, ε); a real factor moves out of a finite sum; and
  t ↦ 1 - t turns a maximum into a minimum. Finiteness of the inputs is what the middle step uses.

  The last slab of each centroid position holds 7840 classes only, and the buffers hold unnamed words past
  them. Column j of every intermediate reads column j of the slab and nothing else, so over the extended
  reals the columns inside the array are unaffected, and only those are written back. At the word level no
  such statement is made: there the output's contents are simply not named, which is all a frame needs.
-/
import proofs.«123097_g82910048682286_cont_9to1c4b_726_13_alg».proof.Defs
import proofs.«123097_g82910048682286_cont_9to1c4b_726_13_alg».proof.Proof.Gen.Kernel
import proofs.«123097_g82910048682286_cont_9to1c4b_726_13_alg».proof.Proof.Gen.KernelIdeal
import proofs.«123097_g82910048682286_cont_9to1c4b_726_13_alg».proof.Proof.Gen.ReferenceIdeal
import proofs.«123097_g82910048682286_cont_9to1c4b_726_13_alg».proof.Proof.Gen.Pre_finite_inputs
import proofs.«123097_g82910048682286_cont_9to1c4b_726_13_alg».proof.Proof.Gen.ReferenceIdeal.Run
import proofs.«123097_g82910048682286_cont_9to1c4b_726_13_alg».proof.Proof.FrameBits
import proofs.«123097_g82910048682286_cont_9to1c4b_726_13_alg».proof.Proof.Bridge
import proofs.«123097_g82910048682286_cont_9to1c4b_726_13_alg».proof.Proof.FiniteIn
import Idealize.ShloMosaic.Adequacy
import Idealize.ShloMosaic.Init

noncomputable section

namespace Cert.Proof

open Idealize.ShloMosaic Idealize.SL.Sem

/-- The word-level kernel terminates, faults nowhere and leaves both arguments as launched. -/
theorem frame_k : Cert.frame_Kernel := fun m ρ _ => Cert.Kernel.FrameBits.frame m ρ

/-- So does the idealized kernel. -/
theorem frame_ki : Cert.frame_KernelIdeal := fun m ρ _ => Cert.KernelIdeal.Run.frame m ρ

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the floor on the squared norm denotes the exact square of the reference's floor. -/
theorem preserves : Cert.preserves_Kernel_KernelIdeal :=
  IdealRules.named_const.statement Cert.KernelIdeal.κ "eps_sq" .f32 0x179ABE15#32
    ((5316911940649 / 5316911983139663491615228241121378304 : ℝ) : EReal) rfl

/-- From memories agreeing on finite arguments both programs end with the same distances. -/
theorem algebraic : Cert.algebraic_KernelIdeal_ReferenceIdeal := by
  intro m ρ m' ρ' hpre hagree
  refine ⟨_, Cert.Bridge.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, (hagree c).1, (hagree c).2]
  obtain ⟨h0, h1⟩ := Cert.FiniteIn.entries_real _ _ (hpre c)
  exact (Cert.Bridge.distances_eq_reference _ _ _ h0 h1).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
